-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S512x128 : Shape := ⟨2, ![512, 128]⟩
abbrev S512 : Shape := ⟨1, ![512]⟩
abbrev S512x1 : Shape := ⟨2, ![512, 1]⟩

abbrev nBuf : Space → Nat
  | .hbm => 115
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S1600000x1, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S1600000x128, .f32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S_, .f32⟩
  | .hbm, ⟨100, _⟩ => ⟨S512x128, .f32⟩
  | .hbm, ⟨101, _⟩ => ⟨S100000x1, .i32⟩
  | .hbm, ⟨102, _⟩ => ⟨S512x128, .f32⟩
  | .hbm, ⟨103, _⟩ => ⟨S_, .f32⟩
  | .hbm, ⟨104, _⟩ => ⟨S100000, .f32⟩
  | .hbm, ⟨105, _⟩ => ⟨S_, .f32⟩
  | .hbm, ⟨106, _⟩ => ⟨S512, .f32⟩
  | .hbm, ⟨107, _⟩ => ⟨S100000x1, .i32⟩
  | .hbm, ⟨108, _⟩ => ⟨S512, .f32⟩
  | .hbm, ⟨109, _⟩ => ⟨S_, .f32⟩
  | .hbm, ⟨110, _⟩ => ⟨S512, .f32⟩
  | .hbm, ⟨111, _⟩ => ⟨S512, .f32⟩
  | .hbm, ⟨112, _⟩ => ⟨S512x1, .f32⟩
  | .hbm, ⟨113, _⟩ => ⟨S512x128, .f32⟩
  | .hbm, ⟨114, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S100000, .f32⟩
  | 44 => ⟨S100000x1, .f32⟩
  | 45 => ⟨S100000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x128, .f32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S1600000x128, .f32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S512x128, .f32⟩
  | 122 => ⟨S100000x1, .i32⟩
  | 123 => ⟨S512x128, .f32⟩
  | 124 => ⟨S_, .f32⟩
  | 125 => ⟨S100000, .f32⟩
  | 126 => ⟨S_, .f32⟩
  | 127 => ⟨S512, .f32⟩
  | _ => ⟨S100000x128, .f32⟩

abbrev hbmTy0_1 (i : Nat) : BufTy := match i % 128 with
  | 0 => ⟨S100000x1, .i32⟩
  | 1 => ⟨S512, .f32⟩
  | 2 => ⟨S_, .f32⟩
  | 3 => ⟨S512, .f32⟩
  | 4 => ⟨S512, .f32⟩
  | 5 => ⟨S512x1, .f32⟩
  | 6 => ⟨S512x128, .f32⟩
  | 7 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_v69 : Ref sig .tc := ⟨.hbm, 95, rfl⟩
abbrev main_c_11 : Ref sig .tc := ⟨.hbm, 96, rfl⟩
abbrev main_v70 : Ref sig .tc := ⟨.hbm, 97, rfl⟩
abbrev main_v71 : Ref sig .tc := ⟨.hbm, 98, rfl⟩
abbrev main_c_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_13 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call2_cst : Ref sig .tc := ⟨.hbm, 117, rfl⟩
abbrev main_call2_v0 : Ref sig .tc := ⟨.hbm, 118, rfl⟩
abbrev main_v88 : Ref sig .tc := ⟨.hbm, 119, rfl⟩
abbrev main_cst_14 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_15 : Ref sig .tc := ⟨.hbm, 124, rfl⟩
abbrev main_v92 : Ref sig .tc := ⟨.hbm, 125, rfl⟩
abbrev main_cst_16 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_17 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.KernelRun.lean ====
/-
  The idealized kernel's run, read at its result buffers.

  @main is eleven segments: five stretches of host operations and six launches of a grid of blocks. Buffer contents are
  carried from segment to segment — a host stretch applies its operations to the contents it finds, a launch replaces
  each of its arrays by what its write-backs leave and keeps every other buffer — so that after the last segment every
  buffer of a core holds the contents `W11` (the fold of all eleven steps over the launch memory). The statement here is
  that every weakly fair execution ends, faultless, with the two result buffers at their `W11` contents and the nine
  argument arrays as launched; what those contents ARE, as functions of the arguments, is read stage by stage in the
  modules that follow.
-/
import proofs.«134860_j89627377533178_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; in the final memory the node-embedding buffer and
    the graph-embedding buffer hold the last boundary's contents, and the argument arrays are as launched. -/
theorem run_results : θ_run defs (onTc (τ := τ) (main (F := F))) ⟨m, fun _ => 0, ρ⟩ (fun r => ∀ c : Dev nD,
      r.2.mem ((c.tc : Thread nD τ).loc main_v73) = W11 m ρ c (Proc.devRef .tc main_v73)
      ∧ r.2.mem ((c.tc : Thread nD τ).loc main_v85) = W11 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v73 (by decide)),
       h c _ (mem_uc main_v85 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Results

end
-- ==== Proof.Carried.lean ====
/-
  The buffers every layer shares, carried through the eleven segments of the idealized kernel's @main.

  The first stretch of host operations computes, from the edge list alone, the source and the destination node of every
  edge, the per-edge normalisation and the per-node self-normalisation; the nine arguments are never written. No later
  segment writes any of these thirteen buffers: a host stretch writes only its own results, and a launch only its output
  array (an input window's array is put back as found). So at every boundary they hold what they held after the first
  stretch — the four computed ones being, operation for operation, the reference's own stage functions of the edge list.
-/
import proofs.«134860_j89627377533178_1_alg».proof.Proof.Gen.KernelIdeal.Frame
import proofs.«134860_j89627377533178_1_alg».proof.Proof.Gen.ReferenceIdeal.Read
import Idealize.ShloMosaic.Lib.StableHlo.Run

set_option maxRecDepth 16384
set_option maxHeartbeats 4000000

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The source node of every edge, as the reference computes it from the edge list. -/
def srcOf (c : Dev nD) : Buf (Elt Ideal) ((c : Thread nD τ).loc main_v1) :=
  Cert.ReferenceIdeal.Read.val_main_v1 (F := Ideal) (m ((c : Thread nD τ).loc main_arg1))
/-- The destination node of every edge. -/
def dstOf (c : Dev nD) : Buf (Elt Ideal) ((c : Thread nD τ).loc main_v3) :=
  Cert.ReferenceIdeal.Read.val_main_v3 (F := Ideal) (m ((c : Thread nD τ).loc main_arg1))
/-- The per-edge normalisation, as a one-column array. -/
def edgeNormOf (c : Dev nD) : Buf (Elt Ideal) ((c : Thread nD τ).loc main_v26) :=
  Cert.ReferenceIdeal.Read.val_main_v26 (F := Ideal) (m ((c : Thread nD τ).loc main_arg1))
/-- The per-node self-normalisation, as a one-column array. -/
def selfNormOf (c : Dev nD) : Buf (Elt Ideal) ((c : Thread nD τ).loc main_v28) :=
  Cert.ReferenceIdeal.Read.val_main_v28 (F := Ideal) (m ((c : Thread nD τ).loc main_arg1))

/-- What the shared buffers hold in the contents `W` of core `c`: the edges' sources and destinations, the two
    normalisations (each the reference's stage function of the edge-list argument), and the nine arguments as launched. -/
structure Carried (c : Dev nD) (W : Valuation τ sig (Elt Ideal)) : Prop where
  src : W (Proc.devRef .tc main_v1) = srcOf m c
  dst : W (Proc.devRef .tc main_v3) = dstOf m c
  enorm : W (Proc.devRef .tc main_v26) = edgeNormOf m c
  snorm : W (Proc.devRef .tc main_v28) = selfNormOf m c
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)

/-- Boundary 1: the first stretch computes the four shared results exactly as the reference does, and leaves the
    arguments alone. -/
theorem carried1 (c : Dev nD) : Carried m c (W1 m ρ c) where
  src := by
    show StableHlo.after hostOps0 (W0 m ρ c) (Proc.devRef .tc main_v1) = _
    dsimp only [hostOps0]
    after_results
    first | done | rfl
  dst := by
    show StableHlo.after hostOps0 (W0 m ρ c) (Proc.devRef .tc main_v3) = _
    dsimp only [hostOps0]
    after_results
    first | done | rfl
  enorm := by
    show StableHlo.after hostOps0 (W0 m ρ c) (Proc.devRef .tc main_v26) = _
    dsimp only [hostOps0]
    after_results
    first | done | rfl
  snorm := by
    show StableHlo.after hostOps0 (W0 m ρ c) (Proc.devRef .tc main_v28) = _
    dsimp only [hostOps0]
    after_results
    first | done | rfl
  a0 := by
    show StableHlo.after hostOps0 (W0 m ρ c) (Proc.devRef .tc main_arg0) = _
    dsimp only [hostOps0]
    after_results
    first | done | rfl
  a1 := by
    show StableHlo.after hostOps0 (W0 m ρ c) (Proc.devRef .tc main_arg1) = _
    dsimp only [hostOps0]
    after_results
    first | done | rfl
  a2 := by
    show StableHlo.after hostOps0 (W0 m ρ c) (Proc.devRef .tc main_arg2) = _
    dsimp only [hostOps0]
    after_results
    first | done | rfl
  a3 := by
    show StableHlo.after hostOps0 (W0 m ρ c) (Proc.devRef .tc main_arg3) = _
    dsimp only [hostOps0]
    after_results
    first | done | rfl
  a4 := by
    show StableHlo.after hostOps0 (W0 m ρ c) (Proc.devRef .tc main_arg4) = _
    dsimp only [hostOps0]
    after_results
    first | done | rfl
  a5 := by
    show StableHlo.after hostOps0 (W0 m ρ c) (Proc.devRef .tc main_arg5) = _
    dsimp only [hostOps0]
    after_results
    first | done | rfl
  a6 := by
    show StableHlo.after hostOps0 (W0 m ρ c) (Proc.devRef .tc main_arg6) = _
    dsimp only [hostOps0]
    after_results
    first | done | rfl
  a7 := by
    show StableHlo.after hostOps0 (W0 m ρ c) (Proc.devRef .tc main_arg7) = _
    dsimp only [hostOps0]
    after_results
    first | done | rfl
  a8 := by
    show StableHlo.after hostOps0 (W0 m ρ c) (Proc.devRef .tc main_arg8) = _
    dsimp only [hostOps0]
    after_results
    first | done | rfl

/-- Boundary 2: launch 0 rewrites only its output array; a shared buffer it reads through an input window is put back
    as found, and one it does not touch is kept. -/
theorem carried2 (c : Dev nD) : Carried m c (W2 m ρ c) := by
  have h := carried1 m ρ c
  exact {
    src := (W2_of_ne m ρ c main_v1 (by decide)).trans h.src
    dst := (W2_of_ne m ρ c main_v3 (by decide)).trans h.dst
    enorm := (W2_of_ne m ρ c main_v26 (by decide)).trans h.enorm
    snorm := (W2_of_ne m ρ c main_v28 (by decide)).trans h.snorm
    a0 := ((W2_arr m ρ c 0).trans (((dat0 (V1 m ρ) c).arrAt_in 0 rfl _).trans (A_eq0 (V1 m ρ) c 0))).trans h.a0
    a1 := (W2_of_ne m ρ c main_arg1 (by decide)).trans h.a1
    a2 := (W2_of_ne m ρ c main_arg2 (by decide)).trans h.a2
    a3 := ((W2_arr m ρ c 1).trans (((dat0 (V1 m ρ) c).arrAt_in 1 rfl _).trans (A_eq0 (V1 m ρ) c 1))).trans h.a3
    a4 := (W2_of_ne m ρ c main_arg4 (by decide)).trans h.a4
    a5 := (W2_of_ne m ρ c main_arg5 (by decide)).trans h.a5
    a6 := (W2_of_ne m ρ c main_arg6 (by decide)).trans h.a6
    a7 := (W2_of_ne m ρ c main_arg7 (by decide)).trans h.a7
    a8 := (W2_of_ne m ρ c main_arg8 (by decide)).trans h.a8 }

/-- Boundary 3: a stretch of host operations writes none of the shared buffers. -/
theorem carried3 (c : Dev nD) : Carried m c (W3 m ρ c) := by
  have h := carried2 m ρ c
  exact {
    src := by
      show StableHlo.after hostOps1 (W2 m ρ c) (Proc.devRef .tc main_v1) = _
      dsimp only [hostOps1]
      after_results
      exact h.src
    dst := by
      show StableHlo.after hostOps1 (W2 m ρ c) (Proc.devRef .tc main_v3) = _
      dsimp only [hostOps1]
      after_results
      exact h.dst
    enorm := by
      show StableHlo.after hostOps1 (W2 m ρ c) (Proc.devRef .tc main_v26) = _
      dsimp only [hostOps1]
      after_results
      exact h.enorm
    snorm := by
      show StableHlo.after hostOps1 (W2 m ρ c) (Proc.devRef .tc main_v28) = _
      dsimp only [hostOps1]
      after_results
      exact h.snorm
    a0 := by
      show StableHlo.after hostOps1 (W2 m ρ c) (Proc.devRef .tc main_arg0) = _
      dsimp only [hostOps1]
      after_results
      exact h.a0
    a1 := by
      show StableHlo.after hostOps1 (W2 m ρ c) (Proc.devRef .tc main_arg1) = _
      dsimp only [hostOps1]
      after_results
      exact h.a1
    a2 := by
      show StableHlo.after hostOps1 (W2 m ρ c) (Proc.devRef .tc main_arg2) = _
      dsimp only [hostOps1]
      after_results
      exact h.a2
    a3 := by
      show StableHlo.after hostOps1 (W2 m ρ c) (Proc.devRef .tc main_arg3) = _
      dsimp only [hostOps1]
      after_results
      exact h.a3
    a4 := by
      show StableHlo.after hostOps1 (W2 m ρ c) (Proc.devRef .tc main_arg4) = _
      dsimp only [hostOps1]
      after_results
      exact h.a4
    a5 := by
      show StableHlo.after hostOps1 (W2 m ρ c) (Proc.devRef .tc main_arg5) = _
      dsimp only [hostOps1]
      after_results
      exact h.a5
    a6 := by
      show StableHlo.after hostOps1 (W2 m ρ c) (Proc.devRef .tc main_arg6) = _
      dsimp only [hostOps1]
      after_results
      exact h.a6
    a7 := by
      show StableHlo.after hostOps1 (W2 m ρ c) (Proc.devRef .tc main_arg7) = _
      dsimp only [hostOps1]
      after_results
      exact h.a7
    a8 := by
      show StableHlo.after hostOps1 (W2 m ρ c) (Proc.devRef .tc main_arg8) = _
      dsimp only [hostOps1]
      after_results
      exact h.a8 }

/-- Boundary 4: launch 1 rewrites only its output array; a shared buffer it reads through an input window is put back
    as found, and one it does not touch is kept. -/
theorem carried4 (c : Dev nD) : Carried m c (W4 m ρ c) := by
  have h := carried3 m ρ c
  exact {
    src := (W4_of_ne m ρ c main_v1 (by decide)).trans h.src
    dst := (W4_of_ne m ρ c main_v3 (by decide)).trans h.dst
    enorm := (W4_of_ne m ρ c main_v26 (by decide)).trans h.enorm
    snorm := ((W4_arr m ρ c 2).trans (((dat1 (V3 m ρ) c).arrAt_in 2 rfl _).trans (A_eq1 (V3 m ρ) c 2))).trans h.snorm
    a0 := (W4_of_ne m ρ c main_arg0 (by decide)).trans h.a0
    a1 := (W4_of_ne m ρ c main_arg1 (by decide)).trans h.a1
    a2 := (W4_of_ne m ρ c main_arg2 (by decide)).trans h.a2
    a3 := (W4_of_ne m ρ c main_arg3 (by decide)).trans h.a3
    a4 := (W4_of_ne m ρ c main_arg4 (by decide)).trans h.a4
    a5 := (W4_of_ne m ρ c main_arg5 (by decide)).trans h.a5
    a6 := (W4_of_ne m ρ c main_arg6 (by decide)).trans h.a6
    a7 := (W4_of_ne m ρ c main_arg7 (by decide)).trans h.a7
    a8 := (W4_of_ne m ρ c main_arg8 (by decide)).trans h.a8 }

/-- Boundary 5: launch 2 rewrites only its output array; a shared buffer it reads through an input window is put back
    as found, and one it does not touch is kept. -/
theorem carried5 (c : Dev nD) : Carried m c (W5 m ρ c) := by
  have h := carried4 m ρ c
  exact {
    src := (W5_of_ne m ρ c main_v1 (by decide)).trans h.src
    dst := (W5_of_ne m ρ c main_v3 (by decide)).trans h.dst
    enorm := (W5_of_ne m ρ c main_v26 (by decide)).trans h.enorm
    snorm := (W5_of_ne m ρ c main_v28 (by decide)).trans h.snorm
    a0 := (W5_of_ne m ρ c main_arg0 (by decide)).trans h.a0
    a1 := (W5_of_ne m ρ c main_arg1 (by decide)).trans h.a1
    a2 := (W5_of_ne m ρ c main_arg2 (by decide)).trans h.a2
    a3 := (W5_of_ne m ρ c main_arg3 (by decide)).trans h.a3
    a4 := (W5_of_ne m ρ c main_arg4 (by decide)).trans h.a4
    a5 := ((W5_arr m ρ c 1).trans (((dat2 (V4 m ρ) c).arrAt_in 1 rfl _).trans (A_eq2 (V4 m ρ) c 1))).trans h.a5
    a6 := (W5_of_ne m ρ c main_arg6 (by decide)).trans h.a6
    a7 := (W5_of_ne m ρ c main_arg7 (by decide)).trans h.a7
    a8 := (W5_of_ne m ρ c main_arg8 (by decide)).trans h.a8 }

/-- Boundary 6: a stretch of host operations writes none of the shared buffers. -/
theorem carried6 (c : Dev nD) : Carried m c (W6 m ρ c) := by
  have h := carried5 m ρ c
  exact {
    src := by
      show StableHlo.after hostOps3 (W5 m ρ c) (Proc.devRef .tc main_v1) = _
      dsimp only [hostOps3]
      after_results
      exact h.src
    dst := by
      show StableHlo.after hostOps3 (W5 m ρ c) (Proc.devRef .tc main_v3) = _
      dsimp only [hostOps3]
      after_results
      exact h.dst
    enorm := by
      show StableHlo.after hostOps3 (W5 m ρ c) (Proc.devRef .tc main_v26) = _
      dsimp only [hostOps3]
      after_results
      exact h.enorm
    snorm := by
      show StableHlo.after hostOps3 (W5 m ρ c) (Proc.devRef .tc main_v28) = _
      dsimp only [hostOps3]
      after_results
      exact h.snorm
    a0 := by
      show StableHlo.after hostOps3 (W5 m ρ c) (Proc.devRef .tc main_arg0) = _
      dsimp only [hostOps3]
      after_results
      exact h.a0
    a1 := by
      show StableHlo.after hostOps3 (W5 m ρ c) (Proc.devRef .tc main_arg1) = _
      dsimp only [hostOps3]
      after_results
      exact h.a1
    a2 := by
      show StableHlo.after hostOps3 (W5 m ρ c) (Proc.devRef .tc main_arg2) = _
      dsimp only [hostOps3]
      after_results
      exact h.a2
    a3 := by
      show StableHlo.after hostOps3 (W5 m ρ c) (Proc.devRef .tc main_arg3) = _
      dsimp only [hostOps3]
      after_results
      exact h.a3
    a4 := by
      show StableHlo.after hostOps3 (W5 m ρ c) (Proc.devRef .tc main_arg4) = _
      dsimp only [hostOps3]
      after_results
      exact h.a4
    a5 := by
      show StableHlo.after hostOps3 (W5 m ρ c) (Proc.devRef .tc main_arg5) = _
      dsimp only [hostOps3]
      after_results
      exact h.a5
    a6 := by
      show StableHlo.after hostOps3 (W5 m ρ c) (Proc.devRef .tc main_arg6) = _
      dsimp only [hostOps3]
      after_results
      exact h.a6
    a7 := by
      show StableHlo.after hostOps3 (W5 m ρ c) (Proc.devRef .tc main_arg7) = _
      dsimp only [hostOps3]
      after_results
      exact h.a7
    a8 := by
      show StableHlo.after hostOps3 (W5 m ρ c) (Proc.devRef .tc main_arg8) = _
      dsimp only [hostOps3]
      after_results
      exact h.a8 }

/-- Boundary 7: launch 3 rewrites only its output array; a shared buffer it reads through an input window is put back
    as found, and one it does not touch is kept. -/
theorem carried7 (c : Dev nD) : Carried m c (W7 m ρ c) := by
  have h := carried6 m ρ c
  exact {
    src := (W7_of_ne m ρ c main_v1 (by decide)).trans h.src
    dst := (W7_of_ne m ρ c main_v3 (by decide)).trans h.dst
    enorm := (W7_of_ne m ρ c main_v26 (by decide)).trans h.enorm
    snorm := ((W7_arr m ρ c 2).trans (((dat3 (V6 m ρ) c).arrAt_in 2 rfl _).trans (A_eq3 (V6 m ρ) c 2))).trans h.snorm
    a0 := (W7_of_ne m ρ c main_arg0 (by decide)).trans h.a0
    a1 := (W7_of_ne m ρ c main_arg1 (by decide)).trans h.a1
    a2 := (W7_of_ne m ρ c main_arg2 (by decide)).trans h.a2
    a3 := (W7_of_ne m ρ c main_arg3 (by decide)).trans h.a3
    a4 := (W7_of_ne m ρ c main_arg4 (by decide)).trans h.a4
    a5 := (W7_of_ne m ρ c main_arg5 (by decide)).trans h.a5
    a6 := (W7_of_ne m ρ c main_arg6 (by decide)).trans h.a6
    a7 := (W7_of_ne m ρ c main_arg7 (by decide)).trans h.a7
    a8 := (W7_of_ne m ρ c main_arg8 (by decide)).trans h.a8 }

/-- Boundary 8: launch 4 rewrites only its output array; a shared buffer it reads through an input window is put back
    as found, and one it does not touch is kept. -/
theorem carried8 (c : Dev nD) : Carried m c (W8 m ρ c) := by
  have h := carried7 m ρ c
  exact {
    src := (W8_of_ne m ρ c main_v1 (by decide)).trans h.src
    dst := (W8_of_ne m ρ c main_v3 (by decide)).trans h.dst
    enorm := (W8_of_ne m ρ c main_v26 (by decide)).trans h.enorm
    snorm := (W8_of_ne m ρ c main_v28 (by decide)).trans h.snorm
    a0 := (W8_of_ne m ρ c main_arg0 (by decide)).trans h.a0
    a1 := (W8_of_ne m ρ c main_arg1 (by decide)).trans h.a1
    a2 := (W8_of_ne m ρ c main_arg2 (by decide)).trans h.a2
    a3 := (W8_of_ne m ρ c main_arg3 (by decide)).trans h.a3
    a4 := (W8_of_ne m ρ c main_arg4 (by decide)).trans h.a4
    a5 := (W8_of_ne m ρ c main_arg5 (by decide)).trans h.a5
    a6 := (W8_of_ne m ρ c main_arg6 (by decide)).trans h.a6
    a7 := ((W8_arr m ρ c 1).trans (((dat4 (V7 m ρ) c).arrAt_in 1 rfl _).trans (A_eq4 (V7 m ρ) c 1))).trans h.a7
    a8 := (W8_of_ne m ρ c main_arg8 (by decide)).trans h.a8 }

/-- Boundary 9: a stretch of host operations writes none of the shared buffers. -/
theorem carried9 (c : Dev nD) : Carried m c (W9 m ρ c) := by
  have h := carried8 m ρ c
  exact {
    src := by
      show StableHlo.after hostOps5 (W8 m ρ c) (Proc.devRef .tc main_v1) = _
      dsimp only [hostOps5]
      after_results
      exact h.src
    dst := by
      show StableHlo.after hostOps5 (W8 m ρ c) (Proc.devRef .tc main_v3) = _
      dsimp only [hostOps5]
      after_results
      exact h.dst
    enorm := by
      show StableHlo.after hostOps5 (W8 m ρ c) (Proc.devRef .tc main_v26) = _
      dsimp only [hostOps5]
      after_results
      exact h.enorm
    snorm := by
      show StableHlo.after hostOps5 (W8 m ρ c) (Proc.devRef .tc main_v28) = _
      dsimp only [hostOps5]
      after_results
      exact h.snorm
    a0 := by
      show StableHlo.after hostOps5 (W8 m ρ c) (Proc.devRef .tc main_arg0) = _
      dsimp only [hostOps5]
      after_results
      exact h.a0
    a1 := by
      show StableHlo.after hostOps5 (W8 m ρ c) (Proc.devRef .tc main_arg1) = _
      dsimp only [hostOps5]
      after_results
      exact h.a1
    a2 := by
      show StableHlo.after hostOps5 (W8 m ρ c) (Proc.devRef .tc main_arg2) = _
      dsimp only [hostOps5]
      after_results
      exact h.a2
    a3 := by
      show StableHlo.after hostOps5 (W8 m ρ c) (Proc.devRef .tc main_arg3) = _
      dsimp only [hostOps5]
      after_results
      exact h.a3
    a4 := by
      show StableHlo.after hostOps5 (W8 m ρ c) (Proc.devRef .tc main_arg4) = _
      dsimp only [hostOps5]
      after_results
      exact h.a4
    a5 := by
      show StableHlo.after hostOps5 (W8 m ρ c) (Proc.devRef .tc main_arg5) = _
      dsimp only [hostOps5]
      after_results
      exact h.a5
    a6 := by
      show StableHlo.after hostOps5 (W8 m ρ c) (Proc.devRef .tc main_arg6) = _
      dsimp only [hostOps5]
      after_results
      exact h.a6
    a7 := by
      show StableHlo.after hostOps5 (W8 m ρ c) (Proc.devRef .tc main_arg7) = _
      dsimp only [hostOps5]
      after_results
      exact h.a7
    a8 := by
      show StableHlo.after hostOps5 (W8 m ρ c) (Proc.devRef .tc main_arg8) = _
      dsimp only [hostOps5]
      after_results
      exact h.a8 }

/-- Boundary 10: launch 5 rewrites only its output array; a shared buffer it reads through an input window is put back
    as found, and one it does not touch is kept. -/
theorem carried10 (c : Dev nD) : Carried m c (W10 m ρ c) := by
  have h := carried9 m ρ c
  exact {
    src := (W10_of_ne m ρ c main_v1 (by decide)).trans h.src
    dst := (W10_of_ne m ρ c main_v3 (by decide)).trans h.dst
    enorm := (W10_of_ne m ρ c main_v26 (by decide)).trans h.enorm
    snorm := ((W10_arr m ρ c 2).trans (((dat5 (V9 m ρ) c).arrAt_in 2 rfl _).trans (A_eq5 (V9 m ρ) c 2))).trans h.snorm
    a0 := (W10_of_ne m ρ c main_arg0 (by decide)).trans h.a0
    a1 := (W10_of_ne m ρ c main_arg1 (by decide)).trans h.a1
    a2 := (W10_of_ne m ρ c main_arg2 (by decide)).trans h.a2
    a3 := (W10_of_ne m ρ c main_arg3 (by decide)).trans h.a3
    a4 := (W10_of_ne m ρ c main_arg4 (by decide)).trans h.a4
    a5 := (W10_of_ne m ρ c main_arg5 (by decide)).trans h.a5
    a6 := (W10_of_ne m ρ c main_arg6 (by decide)).trans h.a6
    a7 := (W10_of_ne m ρ c main_arg7 (by decide)).trans h.a7
    a8 := (W10_of_ne m ρ c main_arg8 (by decide)).trans h.a8 }

end Cert.KernelIdeal.Stages

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.GcnLayer.lean ====
/-
  One layer of a graph convolution, entry by entry over the extended reals.

  A layer sends a node-feature matrix `X` (one row per node, 128 features) first to `H = X · W` (`project`: entry
  `(r, q)` is `∑ k, X[r, k] · W[k, q]`), then — with `A` the neighbours' messages summed per node — to
  `max (A[r, q] + H[r, q] · s[r] + b[q]) 0` (`combine`: `s` the node's own normalisation, kept as a one-column
  matrix, `b` the bias, kept as a one-row matrix). Both are functions of whole rows only, so the same two
  definitions describe a block of rows and the full matrix; this file states them for any number of rows and reads
  off them the two programs' spellings: the device's (a product into a zero accumulator after two changes of float
  format, which are the identity on extended reals; broadcasts of the column and of the row, a sum, a sum, a maximum
  with a splat zero) and the host's (a general product; the column and the row brought to full size by broadcasts,
  the bias vector first given a unit leading axis; the maximum with a broadcast rank-0 zero).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«134860_j89627377533178_1_alg».proof.Proof.LibRowLayers
import proofs.«134860_j89627377533178_1_alg».proof.Proof.LibColumnBroadcast

noncomputable section

namespace Cert.GcnLayer

open Idealize.ShloMosaic Idealize.ShloMosaic.ValueIdx Cert.RowLayers

/-- `X · W`: entry `(r, q)` is `∑ k, X[r, k] · W[k, q]`. -/
def project {n : ℕ} (X : (⟨2, ![n, 128]⟩ : Shape).Idx → EReal) (W : (⟨2, ![128, 128]⟩ : Shape).Idx → EReal) :
    (⟨2, ![n, 128]⟩ : Shape).Idx → EReal :=
  fun i => ∑ k : Fin 128, X (ix2 (i 0) k) * W (ix2 k (i 1))

/-- `max (A + H · s + b) 0`, the column `s` read at the entry's row and the row `b` at the entry's column; the zero is
    the float word of all zero bits, left unevaluated. -/
def combine {n : ℕ} (A H : (⟨2, ![n, 128]⟩ : Shape).Idx → EReal) (s : (⟨2, ![n, 1]⟩ : Shape).Idx → EReal)
    (b : (⟨2, ![1, 128]⟩ : Shape).Idx → EReal) : (⟨2, ![n, 128]⟩ : Shape).Idx → EReal :=
  fun i => max ((A i + H i * s (ix2 (i 0) (0 : Fin 1))) + b (ix2 (0 : Fin 1) (i 1))) (Ideal.ofBits .f32 0x00000000#32)

/-- An entry of `project` depends on the entry's row of `X`, on `W`, and on the entry's column. -/
theorem project_congr {n n' : ℕ} (X : (⟨2, ![n, 128]⟩ : Shape).Idx → EReal) (X' : (⟨2, ![n', 128]⟩ : Shape).Idx → EReal)
    (W W' : (⟨2, ![128, 128]⟩ : Shape).Idx → EReal) (i : (⟨2, ![n, 128]⟩ : Shape).Idx) (i' : (⟨2, ![n', 128]⟩ : Shape).Idx)
    (hX : ∀ k : Fin 128, X (ix2 (i 0) k) = X' (ix2 (i' 0) k)) (hW : W = W') (hc : (i 1).val = (i' 1).val) :
    project X W i = project X' W' i' := by
  subst hW
  unfold project
  refine Finset.sum_congr rfl fun k _ => ?_
  rw [hX k]
  congr 2
  funext a
  apply Fin.ext
  match a with
  | ⟨0, _⟩ => rfl
  | ⟨1, _⟩ => exact hc

/-- An entry of `combine` depends on the same entry of `A` and `H`, on `s` at the entry's row and on `b` at its column. -/
theorem combine_congr {n n' : ℕ} (A H : (⟨2, ![n, 128]⟩ : Shape).Idx → EReal) (s : (⟨2, ![n, 1]⟩ : Shape).Idx → EReal)
    (A' H' : (⟨2, ![n', 128]⟩ : Shape).Idx → EReal) (s' : (⟨2, ![n', 1]⟩ : Shape).Idx → EReal)
    (b b' : (⟨2, ![1, 128]⟩ : Shape).Idx → EReal) (i : (⟨2, ![n, 128]⟩ : Shape).Idx) (i' : (⟨2, ![n', 128]⟩ : Shape).Idx)
    (hA : A i = A' i') (hH : H i = H' i') (hs : s (ix2 (i 0) (0 : Fin 1)) = s' (ix2 (i' 0) (0 : Fin 1)))
    (hb : b (ix2 (0 : Fin 1) (i 1)) = b' (ix2 (0 : Fin 1) (i' 1))) :
    combine A H s b i = combine A' H' s' b' i' := by
  unfold combine
  rw [hA, hH, hs, hb]

/-! ## The device's spelling -/

/-- A product into a zero accumulator whose dimension numbers say rows times columns is `project`. -/
theorem matmul_zero_eq_project {n : ℕ} {φ₁ φ₂ : FTy} {d : DotDims ⟨2, ![n, 128]⟩ ⟨2, ![128, 128]⟩ ⟨2, ![n, 128]⟩}
    (H : RowsTimesCols d) (prec : Option ContractPrecision)
    (lhs : FVec Ideal ⟨2, ![n, 128]⟩ φ₁) (rhs : FVec Ideal ⟨2, ![128, 128]⟩ φ₂) :
    (matmul d prec lhs rhs (constant (F := Ideal) ⟨2, ![n, 128]⟩ .f32 0x00000000#32) : (⟨2, ![n, 128]⟩ : Shape).Idx → EReal)
      = project lhs rhs := by
  funext i
  obtain ⟨p, q, rfl⟩ : ∃ (p : Fin n) (q : Fin 128), i = ix2 p q := ⟨i 0, i 1, eq_ix2 i⟩
  exact (congrFun (rowOf_matmul_zero H prec lhs rhs p) q).trans rfl

/-- The device's combine, entry by entry: the column broadcast along the features, the row down the nodes. -/
theorem device_combine {n : ℕ} (A H : FVec Ideal ⟨2, ![n, 128]⟩ .f32) (s : FVec Ideal ⟨2, ![n, 1]⟩ .f32) (b : FVec Ideal ⟨2, ![1, 128]⟩ .f32)
    (hs : (⟨2, ![n, 1]⟩ : Shape).Broadcasts ⟨2, ![n, 128]⟩) (hb : (⟨2, ![1, 128]⟩ : Shape).Broadcasts ⟨2, ![n, 128]⟩) :
    (maximumf (addf (addf A (mulf H (broadcastTo ⟨2, ![n, 128]⟩ s hs))) (broadcastTo ⟨2, ![n, 128]⟩ b hb))
        (broadcast ⟨2, ![n, 128]⟩ (Scalar.ofBits (F := Ideal) .f32 0x00000000#32)) : (⟨2, ![n, 128]⟩ : Shape).Idx → EReal)
      = combine A H s b := by
  funext i
  obtain ⟨p, q, rfl⟩ : ∃ (p : Fin n) (q : Fin 128), i = ix2 p q := ⟨i 0, i 1, eq_ix2 i⟩
  show max ((A (ix2 p q) + H (ix2 p q) * broadcastTo ⟨2, ![n, 128]⟩ s hs (ix2 p q)) + broadcastTo ⟨2, ![n, 128]⟩ b hb (ix2 p q)) _ = _
  rw [Cert.ColumnBroadcast.broadcastTo_a1_ab_apply s hs p q, broadcastTo_1b_ab_apply b hb p q]
  rfl

/-! ## The host's spelling -/

/-- A general product whose dimension numbers say rows times columns is `project`. -/
theorem dotGeneral_eq_project {n : ℕ} {φ₁ φ₂ : FTy} {d : DotDims ⟨2, ![n, 128]⟩ ⟨2, ![128, 128]⟩ ⟨2, ![n, 128]⟩}
    (H : RowsTimesCols d) (prec : Option ContractPrecision)
    (lhs : FVec Ideal ⟨2, ![n, 128]⟩ φ₁) (rhs : FVec Ideal ⟨2, ![128, 128]⟩ φ₂) :
    (Host.dotGeneral (F := Ideal) d prec lhs rhs : (⟨2, ![n, 128]⟩ : Shape).Idx → EReal) = project lhs rhs := by
  funext i
  obtain ⟨p, q, rfl⟩ : ∃ (p : Fin n) (q : Fin 128), i = ix2 p q := ⟨i 0, i 1, eq_ix2 i⟩
  exact (congrFun (rowOf_dotGeneral H prec lhs rhs p) q).trans rfl

/-- The host's combine: the column and the bias brought to full size by broadcasts (the bias vector through a unit
    leading axis), the maximum taken with a broadcast rank-0 zero. The bias row it amounts to is the vector viewed as
    one row. -/
theorem host_combine {n : ℕ} (hn : n ≠ 1) (A H : FVec Ideal ⟨2, ![n, 128]⟩ .f32) (s : FVec Ideal ⟨2, ![n, 1]⟩ .f32) (bv : FVec Ideal ⟨1, ![128]⟩ .f32)
    (hs : (⟨2, ![n, 1]⟩ : Shape).BroadcastsInDim ⟨2, ![n, 128]⟩ ![0, 1])
    (h1 : (⟨1, ![128]⟩ : Shape).BroadcastsInDim ⟨2, ![1, 128]⟩ ![1]) (h2 : (⟨2, ![1, 128]⟩ : Shape).BroadcastsInDim ⟨2, ![n, 128]⟩ ![0, 1])
    (hz : (⟨0, ![]⟩ : Shape).BroadcastsInDim ⟨2, ![n, 128]⟩ ![])
    (hc : (⟨1, ![128]⟩ : Shape).ShapeCasts ⟨2, ![1, 128]⟩) :
    (maximumf (addf (addf A (mulf H (broadcastInDim ⟨2, ![n, 128]⟩ ![0, 1] hs s)))
          (broadcastInDim ⟨2, ![n, 128]⟩ ![0, 1] h2 (broadcastInDim ⟨2, ![1, 128]⟩ ![1] h1 bv)))
        (broadcastInDim ⟨2, ![n, 128]⟩ ![] hz (constant (F := Ideal) ⟨0, ![]⟩ .f32 0x00000000#32)) : (⟨2, ![n, 128]⟩ : Shape).Idx → EReal)
      = combine A H s (shapeCast ⟨2, ![1, 128]⟩ bv hc) := by
  funext i
  obtain ⟨p, q, rfl⟩ : ∃ (p : Fin n) (q : Fin 128), i = ix2 p q := ⟨i 0, i 1, eq_ix2 i⟩
  have e1 : broadcastInDim ⟨2, ![n, 128]⟩ ![0, 1] hs s (ix2 p q) = s (ix2 p (0 : Fin 1)) :=
    broadcastInDim_apply ![0, 1] hs s (ix2 p q) (ix2 p (0 : Fin 1)) (fun ax => by
      match ax with
      | ⟨0, _⟩ => show p.val = if n = 1 then 0 else p.val; rw [if_neg hn]
      | ⟨1, _⟩ => show (0 : ℕ) = if (1 : ℕ) = 1 then 0 else q.val; rw [if_pos rfl])
  have e2 : broadcastInDim ⟨2, ![n, 128]⟩ ![0, 1] h2 (broadcastInDim ⟨2, ![1, 128]⟩ ![1] h1 bv) (ix2 p q) = bv (ix1 q) :=
    congrFun (rowOf_broadcastInDim_vec bv h1 h2 p) q
  have e3 : shapeCast ⟨2, ![1, 128]⟩ bv hc (ix2 (0 : Fin 1) q) = bv (ix1 q) := shapeCast_a_1a_apply bv hc (0 : Fin 1) q
  show max ((A (ix2 p q) + H (ix2 p q) * broadcastInDim ⟨2, ![n, 128]⟩ ![0, 1] hs s (ix2 p q))
      + broadcastInDim ⟨2, ![n, 128]⟩ ![0, 1] h2 (broadcastInDim ⟨2, ![1, 128]⟩ ![1] h1 bv) (ix2 p q)) _ = _
  rw [e1, e2]
  show max ((A (ix2 p q) + H (ix2 p q) * s (ix2 p (0 : Fin 1))) + bv (ix1 q)) (Ideal.ofBits .f32 0x00000000#32)
    = max ((A (ix2 p q) + H (ix2 p q) * s (ix2 p (0 : Fin 1))) + shapeCast ⟨2, ![1, 128]⟩ bv hc (ix2 (0 : Fin 1) q)) (Ideal.ofBits .f32 0x00000000#32)
  rw [e3]

end Cert.GcnLayer

end
-- ==== Proof.RefLayers.lean ====
/-
  The reference, layer by layer: each of its three matrix products is `project`, and each of its three
  "add the self term, add the bias, rectify" stretches is `combine` of the aggregated messages, the projected
  features, the self-normalisation column and the bias vector viewed as one row.
-/
import proofs.«134860_j89627377533178_1_alg».proof.Proof.Gen.ReferenceIdeal.Read
import proofs.«134860_j89627377533178_1_alg».proof.Proof.GcnLayer

noncomputable section

namespace Cert.ReferenceIdeal.Layers

open Cert.ReferenceIdeal Cert.ReferenceIdeal.Read
open Idealize.ShloMosaic Idealize.ShloMosaic.ValueIdx
open Cert.GcnLayer Cert.RowLayers

/-- The reference's product `[100000,128] × [128,128]` reads the left operand at (row, k) and the right one at (k, column). -/
theorem rowsTimesCols : RowsTimesCols dot_S100000x128_S128x128_S100000x128_1_0_0_1_n_n :=
  ⟨rfl, rfl, lhs_main_v29_0, lhs_main_v29_1, rhs_main_v29_0, rhs_main_v29_1⟩

/-- Layer 1's projected features. -/
theorem features1 (x0 : (⟨S100000x128, .f32⟩ : BufTy).Contents (Elt Ideal)) (x3 : (⟨S128x128, .f32⟩ : BufTy).Contents (Elt Ideal)) :
    (val_main_v29 (F := Ideal) x0 x3 : S100000x128.Idx → EReal) = project x0 x3 := by
  unfold val_main_v29
  exact dotGeneral_eq_project rowsTimesCols none _ _

/-- Layer 2's projected features: the product of layer 1's output with the second weight matrix. -/
theorem features2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    (val_main_v49 (F := Ideal) x0 x1 x3 x4 x5 : S100000x128.Idx → EReal) = project (val_main_v48 (F := Ideal) x0 x1 x3 x4) x5 := by
  unfold val_main_v49
  exact dotGeneral_eq_project rowsTimesCols none _ _

/-- Layer 3's projected features: the product of layer 2's output with the third weight matrix. -/
theorem features3 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    (val_main_v69 (F := Ideal) x0 x1 x3 x4 x5 x6 x7 : S100000x128.Idx → EReal) = project (val_main_v68 (F := Ideal) x0 x1 x3 x4 x5 x6) x7 := by
  unfold val_main_v69
  exact dotGeneral_eq_project rowsTimesCols none _ _

/-- Layer 1's output. -/
theorem layer1 (hc : S128.ShapeCasts S1x128) (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) :
    (val_main_v48 (F := Ideal) x0 x1 x3 x4 : S100000x128.Idx → EReal)
      = combine (val_main_v41 (F := Ideal) x0 x1 x3) (val_main_v29 (F := Ideal) x0 x3) (val_main_v28 (F := Ideal) x1) (shapeCast S1x128 x4 hc) := by
  unfold val_main_v48 val_main_v47 val_main_v44 val_main_v43 val_main_v42 val_main_v46 val_main_v45 val_main_call0_v0 val_main_call0_cst
  exact host_combine (by decide) _ _ _ _ _ _ _ _ hc

/-- Layer 2's output. -/
theorem layer2 (hc : S128.ShapeCasts S1x128) (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    (val_main_v68 (F := Ideal) x0 x1 x3 x4 x5 x6 : S100000x128.Idx → EReal)
      = combine (val_main_v61 (F := Ideal) x0 x1 x3 x4 x5) (val_main_v49 (F := Ideal) x0 x1 x3 x4 x5) (val_main_v28 (F := Ideal) x1) (shapeCast S1x128 x6 hc) := by
  unfold val_main_v68 val_main_v67 val_main_v64 val_main_v63 val_main_v62 val_main_v66 val_main_v65 val_main_call1_v0 val_main_call1_cst
  exact host_combine (by decide) _ _ _ _ _ _ _ _ hc

/-- Layer 3's output: the node embeddings. -/
theorem layer3 (hc : S128.ShapeCasts S1x128) (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    (val_main_v88 (F := Ideal) x0 x1 x3 x4 x5 x6 x7 x8 : S100000x128.Idx → EReal)
      = combine (val_main_v81 (F := Ideal) x0 x1 x3 x4 x5 x6 x7) (val_main_v69 (F := Ideal) x0 x1 x3 x4 x5 x6 x7) (val_main_v28 (F := Ideal) x1) (shapeCast S1x128 x8 hc) := by
  unfold val_main_v88 val_main_v87 val_main_v84 val_main_v83 val_main_v82 val_main_v86 val_main_v85 val_main_call2_v0 val_main_call2_cst
  exact host_combine (by decide) _ _ _ _ _ _ _ _ hc

end Cert.ReferenceIdeal.Layers

end
-- ==== Proof.BlockFacts.lean ====
/-
  Facts about one block of 5000 node rows that all six launches share: the zero offsets of a whole-block access, and
  that the block product's dimension numbers contract the features of the left operand with the rows of the right one
  ("rows times columns").
-/
import proofs.«134860_j89627377533178_1_alg».proof.Proof.Gen.KernelIdeal.Frame
import proofs.«134860_j89627377533178_1_alg».proof.Proof.GcnLayer

noncomputable section

namespace Cert.KernelIdeal.Blocks

open Cert.KernelIdeal Cert.KernelIdeal.Gen
open Idealize.ShloMosaic Idealize.ShloMosaic.ValueIdx
open Cert.RowLayers

/-- The offsets of an access to a whole rank-2 block. -/
theorem hz : (![0, 0] : Fin 2 → Nat) = fun _ => 0 := funext fun a => by fin_cases a <;> rfl

/-- The block product `[5000,128] × [128,128] → [5000,128]` reads the left operand at (row, k) and the right one at
    (k, column), `k` running over the 128 contracted positions. -/
theorem rowsTimesCols : RowsTimesCols dot_S5000x128_S128x128_S5000x128_1_0_0_1_n_n where
  rank := rfl
  size := rfl
  lhs0 := fun j q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  lhs1 := fun j q => dot_S5000x128_S128x128_S5000x128_1_0_0_1_n_n.lhsIdx_val_of_single rfl j q
  rhs0 := fun j q => dot_S5000x128_S128x128_S5000x128_1_0_0_1_n_n.rhsIdx_val_of_single rfl j q
  rhs1 := fun j q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

end Cert.KernelIdeal.Blocks

end
-- ==== Proof.Project0.lean ====
/-
  Launch 0 (a projection): the array it leaves is `project` of the two arrays it reads.

  The grid has 20 points. At point `t` the body sees rows `5000·t … 5000·t + 4999` of the node-feature array
  (`main_arg0`) and the whole weight matrix (`main_arg3`), multiplies them into a zero accumulator, and its block is
  written back to the same rows of `main_v29`. An entry of a product depends only on its own row of the left operand,
  so each written block is the matching block of the full product; the 20 row blocks tile the array, so the array ends
  as the full product. Everything is stated for ANY contents `V` found at the launch.
-/
import proofs.«134860_j89627377533178_1_alg».proof.Proof.Gen.KernelIdeal.Frame
import proofs.«134860_j89627377533178_1_alg».proof.Proof.GcnLayer
import proofs.«134860_j89627377533178_1_alg».proof.Proof.BlockFacts
import Idealize.ShloMosaic.Lib.Pipeline.Value

set_option maxRecDepth 16384

noncomputable section

namespace Cert.KernelIdeal.Project0

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open Cert.GcnLayer Cert.RowLayers

variable (V : (c : Dev nD) → (b : Ref sig .tc) → Buf (Elt Ideal) ((c : Thread nD τ).loc b))

/-- The body's stored value is the product of its two loaded blocks (the two changes of float format are the identity
    on extended reals). -/
theorem payload_eq (x0 : Vec Ideal S5000x128 .f32) (x1 : Vec Ideal S128x128 .f32) :
    (k0_pay1 x0 x1 : S5000x128.Idx → EReal) = project x0 x1 := by
  unfold k0_pay1
  dsimp only
  try simp only [shapeCast_self]
  exact matmul_zero_eq_project rowsTimesCols none _ _

/-- The printed index maps over the grid: the row-block windows sit at block row `t`, block column 0; the weight window
    always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000·t …` of the array. -/
theorem read_rows (c : Dev nD) (t : Fin cfg0.N) (y : S5000x128.Idx) (i : S100000x128.Idx)
    (h0 : (i 0).val = 5000 * t.val + (y 0).val) (h1 : (i 1).val = (y 1).val) :
    (iblk0 V c 0 t : S5000x128.Idx → EReal) y = (V c main_arg0 : S100000x128.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weight window's block is the whole matrix at every point. -/
theorem read_weights (c : Dev nD) (t : Fin cfg0.N) :
    (iblk0 V c 1 t : S128x128.Idx → EReal) = (V c main_arg3 : S128x128.Idx → EReal) := by
  obtain ⟨-, -, e2, e3, -⟩ := idx_facts t
  funext y
  unfold iblk0
  rw [View.read_apply]
  show V c main_arg3 _ = V c main_arg3 _
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- The full product, at the output array's buffer. -/
abbrev product (c : Dev nD) : Buf (Elt Ideal) ((c : Thread nD τ).loc main_v29) :=
  project (V c main_arg0 : S100000x128.Idx → EReal) (V c main_arg3 : S128x128.Idx → EReal)

/-- What point `t` writes back is block `t` of the full product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  show k0_pay1 (iblk0 V c 0 t) (iblk0 V c 1 t) j
    = project (V c main_arg0 : S100000x128.Idx → EReal) (V c main_arg3 : S128x128.Idx → EReal) (((cfg0.win 2).blk t).view.emb j)
  refine (congrFun (payload_eq (iblk0 V c 0 t) (iblk0 V c 1 t)) j).trans ?_
  refine project_congr (n := 5000) (n' := 100000) (iblk0 V c 0 t) (V c main_arg0) (iblk0 V c 1 t) (V c main_arg3) j
    (((cfg0.win 2).blk t).view.emb j) (fun k => ?_) (read_weights V c t) ?_
  · refine read_rows V c t _ _ ?_ rfl
    show win0_2.index t 0 * 5000 + 1 * (j 0).val = 5000 * t.val + (j 0).val
    rw [e4]; omega
  · show (j 1).val = win0_2.index t 1 * 128 + 1 * (j 1).val
    rw [e5]; omega

/-- An index of the array is in point `t`'s output block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- THE ARRAY AFTER THE LAUNCH is the full product: row `r` is covered by point `r / 5000`. -/
theorem final (c : Dev nD) : (dat0 V c).arrAt 2 cfg0.N = product V c :=
  (dat0 V c).arrAt_eq_of_cover 2 (product V c) (fun t _ => flushed_eq V c t) fun i => by
    have hi0 : (i 0).val < 100000 := (i 0).isLt
    have hi1 : (i 1).val < 128 := (i 1).isLt
    obtain ⟨t, ht⟩ : ∃ t : Fin cfg0.N, t.val = (i 0).val / 5000 :=
      ⟨⟨(i 0).val / 5000, by rw [show cfg0.N = 20 from N_0]; omega⟩, rfl⟩
    obtain ⟨-, -, -, -, e4, e5⟩ := idx_facts t
    refine ⟨t, flush0_2 t, ?_⟩
    rw [mem_blk]
    intro a
    match a with
    | ⟨0, _⟩ => show win0_2.index t 0 * 5000 ≤ (i 0).val ∧ (i 0).val < win0_2.index t 0 * 5000 + 5000; rw [e4, ht]; omega
    | ⟨1, _⟩ => show win0_2.index t 1 * 128 ≤ (i 1).val ∧ (i 1).val < win0_2.index t 1 * 128 + 128; rw [e5]; omega

end Cert.KernelIdeal.Project0

end
-- ==== Proof.Project2.lean ====
/-
  Launch 2 (a projection): the array it leaves is `project` of the two arrays it reads.

  The grid has 20 points. At point `t` the body sees rows `5000·t … 5000·t + 4999` of the node-feature array
  (`main_v43`) and the whole weight matrix (`main_arg5`), multiplies them into a zero accumulator, and its block is
  written back to the same rows of `main_v44`. An entry of a product depends only on its own row of the left operand,
  so each written block is the matching block of the full product; the 20 row blocks tile the array, so the array ends
  as the full product. Everything is stated for ANY contents `V` found at the launch.
-/
import proofs.«134860_j89627377533178_1_alg».proof.Proof.Gen.KernelIdeal.Frame
import proofs.«134860_j89627377533178_1_alg».proof.Proof.GcnLayer
import proofs.«134860_j89627377533178_1_alg».proof.Proof.BlockFacts
import Idealize.ShloMosaic.Lib.Pipeline.Value

set_option maxRecDepth 16384

noncomputable section

namespace Cert.KernelIdeal.Project2

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open Cert.GcnLayer Cert.RowLayers

variable (V : (c : Dev nD) → (b : Ref sig .tc) → Buf (Elt Ideal) ((c : Thread nD τ).loc b))

/-- The body's stored value is the product of its two loaded blocks (the two changes of float format are the identity
    on extended reals). -/
theorem payload_eq (x0 : Vec Ideal S5000x128 .f32) (x1 : Vec Ideal S128x128 .f32) :
    (k2_pay1 x0 x1 : S5000x128.Idx → EReal) = project x0 x1 := by
  unfold k2_pay1
  dsimp only
  try simp only [shapeCast_self]
  exact matmul_zero_eq_project rowsTimesCols none _ _

/-- The printed index maps over the grid: the row-block windows sit at block row `t`, block column 0; the weight window
    always at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature window's block at point `t` is rows `5000·t …` of the array. -/
theorem read_rows (c : Dev nD) (t : Fin cfg2.N) (y : S5000x128.Idx) (i : S100000x128.Idx)
    (h0 : (i 0).val = 5000 * t.val + (y 0).val) (h1 : (i 1).val = (y 1).val) :
    (iblk2 V c 0 t : S5000x128.Idx → EReal) y = (V c main_v43 : S100000x128.Idx → EReal) i := by
  obtain ⟨e0, e1, -⟩ := idx_facts t
  unfold iblk2
  rw [View.read_apply]
  show V c main_v43 _ = V c main_v43 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The weight window's block is the whole matrix at every point. -/
theorem read_weights (c : Dev nD) (t : Fin cfg2.N) :
    (iblk2 V c 1 t : S128x128.Idx → EReal) = (V c main_arg5 : S128x128.Idx → EReal) := by
  obtain ⟨-, -, e2, e3, -⟩ := idx_facts t
  funext y
  unfold iblk2
  rw [View.read_apply]
  show V c main_arg5 _ = V c main_arg5 _
  congr 1
  funext a
  apply Fin.ext
  match a with
  | ⟨0, _⟩ => show win2_1.index t 0 * 128 + 1 * (y 0).val = (y 0).val; rw [e2]; omega
  | ⟨1, _⟩ => show win2_1.index t 1 * 128 + 1 * (y 1).val = (y 1).val; rw [e3]; omega

/-- The full product, at the output array's buffer. -/
abbrev product (c : Dev nD) : Buf (Elt Ideal) ((c : Thread nD τ).loc main_v44) :=
  project (V c main_v43 : S100000x128.Idx → EReal) (V c main_arg5 : S128x128.Idx → EReal)

/-- What point `t` writes back is block `t` of the full product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx_facts t
  funext j
  show k2_pay1 (iblk2 V c 0 t) (iblk2 V c 1 t) j
    = project (V c main_v43 : S100000x128.Idx → EReal) (V c main_arg5 : S128x128.Idx → EReal) (((cfg2.win 2).blk t).view.emb j)
  refine (congrFun (payload_eq (iblk2 V c 0 t) (iblk2 V c 1 t)) j).trans ?_
  refine project_congr (n := 5000) (n' := 100000) (iblk2 V c 0 t) (V c main_v43) (iblk2 V c 1 t) (V c main_arg5) j
    (((cfg2.win 2).blk t).view.emb j) (fun k => ?_) (read_weights V c t) ?_
  · refine read_rows V c t _ _ ?_ rfl
    show win2_2.index t 0 * 5000 + 1 * (j 0).val = 5000 * t.val + (j 0).val
    rw [e4]; omega
  · show (j 1).val = win2_2.index t 1 * 128 + 1 * (j 1).val
    rw [e5]; omega

/-- An index of the array is in point `t`'s output block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- THE ARRAY AFTER THE LAUNCH is the full product: row `r` is covered by point `r / 5000`. -/
theorem final (c : Dev nD) : (dat2 V c).arrAt 2 cfg2.N = product V c :=
  (dat2 V c).arrAt_eq_of_cover 2 (product V c) (fun t _ => flushed_eq V c t) fun i => by
    have hi0 : (i 0).val < 100000 := (i 0).isLt
    have hi1 : (i 1).val < 128 := (i 1).isLt
    obtain ⟨t, ht⟩ : ∃ t : Fin cfg2.N, t.val = (i 0).val / 5000 :=
      ⟨⟨(i 0).val / 5000, by rw [show cfg2.N = 20 from N_2]; omega⟩, rfl⟩
    obtain ⟨-, -, -, -, e4, e5⟩ := idx_facts t
    refine ⟨t, flush2_2 t, ?_⟩
    rw [mem_blk]
    intro a
    match a with
    | ⟨0, _⟩ => show win2_2.index t 0 * 5000 ≤ (i 0).val ∧ (i 0).val < win2_2.index t 0 * 5000 + 5000; rw [e4, ht]; omega
    | ⟨1, _⟩ => show win2_2.index t 1 * 128 ≤ (i 1).val ∧ (i 1).val < win2_2.index t 1 * 128 + 128; rw [e5]; omega

end Cert.KernelIdeal.Project2

end
-- ==== Proof.Project4.lean ====
/-
  Launch 4 (a projection): the array it leaves is `project` of the two arrays it reads.

  The grid has 20 points. At point `t` the body sees rows `5000·t … 5000·t + 4999` of the node-feature array
  (`main_v58`) and the whole weight matrix (`main_arg7`), multiplies them into a zero accumulator, and its block is
  written back to the same rows of `main_v59`. An entry of a product depends only on its own row of the left operand,
  so each written block is the matching block of the full product; the 20 row blocks tile the array, so the array ends
  as the full product. Everything is stated for ANY contents `V` found at the launch.
-/
import proofs.«134860_j89627377533178_1_alg».proof.Proof.Gen.KernelIdeal.Frame
import proofs.«134860_j89627377533178_1_alg».proof.Proof.GcnLayer
import proofs.«134860_j89627377533178_1_alg».proof.Proof.BlockFacts
import Idealize.ShloMosaic.Lib.Pipeline.Value

set_option maxRecDepth 16384

noncomputable section

namespace Cert.KernelIdeal.Project4

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open Cert.GcnLayer Cert.RowLayers

variable (V : (c : Dev nD) → (b : Ref sig .tc) → Buf (Elt Ideal) ((c : Thread nD τ).loc b))

/-- The body's stored value is the product of its two loaded blocks (the two changes of float format are the identity
    on extended reals). -/
theorem payload_eq (x0 : Vec Ideal S5000x128 .f32) (x1 : Vec Ideal S128x128 .f32) :
    (k4_pay1 x0 x1 : S5000x128.Idx → EReal) = project x0 x1 := by
  unfold k4_pay1
  dsimp only
  try simp only [shapeCast_self]
  exact matmul_zero_eq_project rowsTimesCols none _ _

/-- The printed index maps over the grid: the row-block windows sit at block row `t`, block column 0; the weight window
    always at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature window's block at point `t` is rows `5000·t …` of the array. -/
theorem read_rows (c : Dev nD) (t : Fin cfg4.N) (y : S5000x128.Idx) (i : S100000x128.Idx)
    (h0 : (i 0).val = 5000 * t.val + (y 0).val) (h1 : (i 1).val = (y 1).val) :
    (iblk4 V c 0 t : S5000x128.Idx → EReal) y = (V c main_v58 : S100000x128.Idx → EReal) i := by
  obtain ⟨e0, e1, -⟩ := idx_facts t
  unfold iblk4
  rw [View.read_apply]
  show V c main_v58 _ = V c main_v58 _
  congr 1
  funext a
  apply Fin.ext
  match a with
  | ⟨0, _⟩ => show win4_0.index t 0 * 5000 + 1 * (y 0).val = (i 0).val; rw [e0, h0]; omega
  | ⟨1, _⟩ => show win4_0.index t 1 * 128 + 1 * (y 1).val = (i 1).val; rw [e1, h1]; omega

/-- The weight window's block is the whole matrix at every point. -/
theorem read_weights (c : Dev nD) (t : Fin cfg4.N) :
    (iblk4 V c 1 t : S128x128.Idx → EReal) = (V c main_arg7 : S128x128.Idx → EReal) := by
  obtain ⟨-, -, e2, e3, -⟩ := idx_facts t
  funext y
  unfold iblk4
  rw [View.read_apply]
  show V c main_arg7 _ = V c main_arg7 _
  congr 1
  funext a
  apply Fin.ext
  match a with
  | ⟨0, _⟩ => show win4_1.index t 0 * 128 + 1 * (y 0).val = (y 0).val; rw [e2]; omega
  | ⟨1, _⟩ => show win4_1.index t 1 * 128 + 1 * (y 1).val = (y 1).val; rw [e3]; omega

/-- The full product, at the output array's buffer. -/
abbrev product (c : Dev nD) : Buf (Elt Ideal) ((c : Thread nD τ).loc main_v59) :=
  project (V c main_v58 : S100000x128.Idx → EReal) (V c main_arg7 : S128x128.Idx → EReal)

/-- What point `t` writes back is block `t` of the full product. -/
theorem flushed_eq (c : Dev nD) (t : Fin cfg4.N) :
    (dat4 V c).flushed 2 t = ((cfg4.win 2).blk t).view.read (Elt Ideal) (product V c) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨-, -, -, -, e4, e5⟩ := idx_facts t
  funext j
  show k4_pay1 (iblk4 V c 0 t) (iblk4 V c 1 t) j
    = project (V c main_v58 : S100000x128.Idx → EReal) (V c main_arg7 : S128x128.Idx → EReal) (((cfg4.win 2).blk t).view.emb j)
  refine (congrFun (payload_eq (iblk4 V c 0 t) (iblk4 V c 1 t)) j).trans ?_
  refine project_congr (n := 5000) (n' := 100000) (iblk4 V c 0 t) (V c main_v58) (iblk4 V c 1 t) (V c main_arg7) j
    (((cfg4.win 2).blk t).view.emb j) (fun k => ?_) (read_weights V c t) ?_
  · refine read_rows V c t _ _ ?_ rfl
    show win4_2.index t 0 * 5000 + 1 * (j 0).val = 5000 * t.val + (j 0).val
    rw [e4]; omega
  · show (j 1).val = win4_2.index t 1 * 128 + 1 * (j 1).val
    rw [e5]; omega

/-- An index of the array is in point `t`'s output block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v59).slice (win4_2.rect t)).set ↔ _
  rw [View.set_slice_whole, Rect.mem_set_unit]
  exact Iff.rfl

/-- THE ARRAY AFTER THE LAUNCH is the full product: row `r` is covered by point `r / 5000`. -/
theorem final (c : Dev nD) : (dat4 V c).arrAt 2 cfg4.N = product V c :=
  (dat4 V c).arrAt_eq_of_cover 2 (product V c) (fun t _ => flushed_eq V c t) fun i => by
    have hi0 : (i 0).val < 100000 := (i 0).isLt
    have hi1 : (i 1).val < 128 := (i 1).isLt
    obtain ⟨t, ht⟩ : ∃ t : Fin cfg4.N, t.val = (i 0).val / 5000 :=
      ⟨⟨(i 0).val / 5000, by rw [show cfg4.N = 20 from N_4]; omega⟩, rfl⟩
    obtain ⟨-, -, -, -, e4, e5⟩ := idx_facts t
    refine ⟨t, flush4_2 t, ?_⟩
    rw [mem_blk]
    intro a
    match a with
    | ⟨0, _⟩ => show win4_2.index t 0 * 5000 ≤ (i 0).val ∧ (i 0).val < win4_2.index t 0 * 5000 + 5000; rw [e4, ht]; omega
    | ⟨1, _⟩ => show win4_2.index t 1 * 128 ≤ (i 1).val ∧ (i 1).val < win4_2.index t 1 * 128 + 128; rw [e5]; omega

end Cert.KernelIdeal.Project4

end
-- ==== Proof.Combine1.lean ====
/-
  Launch 1 (normalise, add the bias, rectify): the array it leaves is `combine` of the four arrays it reads.

  The grid has 20 points. At point `t` the body sees rows `5000·t … 5000·t + 4999` of the aggregated messages
  (`main_v41`), of the projected features (`main_v29`) and of the one-column self-normalisation (`main_v28`), and the
  whole one-row bias (`main_v42`); it stores `max (A + H·s + b) 0`, the column broadcast along the features and the row
  down the nodes, and the block is written back to the same rows of `main_v43`. An entry of `combine` depends only on
  the same entry of `A` and `H`, on `s` at its row and on `b` at its column, so each written block is the matching block
  of `combine` of the full arrays; the 20 row blocks tile the array. Stated for ANY contents `V` found at the launch.
-/
import proofs.«134860_j89627377533178_1_alg».proof.Proof.Gen.KernelIdeal.Frame
import proofs.«134860_j89627377533178_1_alg».proof.Proof.GcnLayer
import proofs.«134860_j89627377533178_1_alg».proof.Proof.BlockFacts
import Idealize.ShloMosaic.Lib.Pipeline.Value

set_option maxRecDepth 16384

noncomputable section

namespace Cert.KernelIdeal.Combine1

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open Cert.GcnLayer Cert.RowLayers

variable (V : (c : Dev nD) → (b : Ref sig .tc) → Buf (Elt Ideal) ((c : Thread nD τ).loc b))

/-- The body's stored value is `combine` of its four loaded blocks (the casts to the same shape are the identity). -/
theorem payload_eq (x0 x1 : Vec Ideal S5000x128 .f32) (x2 : Vec Ideal S5000x1 .f32) (x3 : Vec Ideal S1x128 .f32) :
    (k1_pay1 x0 x1 x2 x3 : S5000x128.Idx → EReal) = combine x0 x1 x2 x3 := by
  unfold k1_pay1
  dsimp only
  simp only [shapeCast_self]
  exact device_combine _ _ _ _ _ _

/-- The printed index maps over the grid: the row-block windows (messages, features, the column, the output) sit at
    block row `t`, block column 0; the bias window always at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The messages window's block at point `t` is rows `5000·t …` of the array. -/
theorem read_messages (c : Dev nD) (t : Fin cfg1.N) (y : S5000x128.Idx) (i : S100000x128.Idx)
    (h0 : (i 0).val = 5000 * t.val + (y 0).val) (h1 : (i 1).val = (y 1).val) :
    (iblk1 V c 0 t : S5000x128.Idx → EReal) y = (V c main_v41 : S100000x128.Idx → EReal) i := by
  obtain ⟨e0, e1, -⟩ := idx_facts t
  unfold iblk1
  rw [View.read_apply]
  show V c main_v41 _ = V c main_v41 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The features window's block at point `t` is rows `5000·t …` of the array. -/
theorem read_features (c : Dev nD) (t : Fin cfg1.N) (y : S5000x128.Idx) (i : S100000x128.Idx)
    (h0 : (i 0).val = 5000 * t.val + (y 0).val) (h1 : (i 1).val = (y 1).val) :
    (iblk1 V c 1 t : S5000x128.Idx → EReal) y = (V c main_v29 : S100000x128.Idx → EReal) i := by
  obtain ⟨-, -, e0, e1, -⟩ := idx_facts t
  unfold iblk1
  rw [View.read_apply]
  show V c main_v29 _ = V c main_v29 _
  congr 1
  funext a
  apply Fin.ext
  match a with
  | ⟨0, _⟩ => show win1_1.index t 0 * 5000 + 1 * (y 0).val = (i 0).val; rw [e0, h0]; omega
  | ⟨1, _⟩ => show win1_1.index t 1 * 128 + 1 * (y 1).val = (i 1).val; rw [e1, h1]; omega

/-- The column window's block at point `t` is rows `5000·t …` of the one-column array. -/
theorem read_column (c : Dev nD) (t : Fin cfg1.N) (y : S5000x1.Idx) (i : S100000x1.Idx)
    (h0 : (i 0).val = 5000 * t.val + (y 0).val) (h1 : (i 1).val = (y 1).val) :
    (iblk1 V c 2 t : S5000x1.Idx → EReal) y = (V c main_v28 : S100000x1.Idx → EReal) i := by
  obtain ⟨-, -, -, -, e0, e1, -⟩ := idx_facts t
  unfold iblk1
  rw [View.read_apply]
  show V c main_v28 _ = V c main_v28 _
  congr 1
  funext a
  apply Fin.ext
  match a with
  | ⟨0, _⟩ => show win1_2.index t 0 * 5000 + 1 * (y 0).val = (i 0).val; rw [e0, h0]; omega
  | ⟨1, _⟩ => show win1_2.index t 1 * 1 + 1 * (y 1).val = (i 1).val; rw [e1, h1]; omega

/-- The bias window's block is the whole row at every point. -/
theorem read_bias (c : Dev nD) (t : Fin cfg1.N) :
    (iblk1 V c 3 t : S1x128.Idx → EReal) = (V c main_v42 : S1x128.Idx → EReal) := by
  obtain ⟨-, -, -, -, -, -, e0, e1, -⟩ := idx_facts t
  funext y
  unfold iblk1
  rw [View.read_apply]
  show V c main_v42 _ = V c main_v42 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- `combine` of the full arrays, at the output array's buffer. -/
abbrev combined (c : Dev nD) : Buf (Elt Ideal) ((c : Thread nD τ).loc main_v43) :=
  combine (V c main_v41 : S100000x128.Idx → EReal) (V c main_v29 : S100000x128.Idx → EReal)
    (V c main_v28 : S100000x1.Idx → EReal) (V c main_v42 : S1x128.Idx → EReal)

/-- What point `t` writes back is block `t` of `combine` of the full arrays. -/
theorem flushed_eq (c : Dev nD) (t : Fin cfg1.N) :
    (dat1 V c).flushed 4 t = ((cfg1.win 4).blk t).view.read (Elt Ideal) (combined V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨-, -, -, -, -, -, -, -, e8, e9⟩ := idx_facts t
  funext j
  show k1_pay1 (iblk1 V c 0 t) (iblk1 V c 1 t) (iblk1 V c 2 t) (iblk1 V c 3 t) j
    = combine (V c main_v41 : S100000x128.Idx → EReal) (V c main_v29 : S100000x128.Idx → EReal)
        (V c main_v28 : S100000x1.Idx → EReal) (V c main_v42 : S1x128.Idx → EReal) (((cfg1.win 4).blk t).view.emb j)
  refine (congrFun (payload_eq (iblk1 V c 0 t) (iblk1 V c 1 t) (iblk1 V c 2 t) (iblk1 V c 3 t)) j).trans ?_
  have hrow : ((((cfg1.win 4).blk t).view.emb j) 0).val = 5000 * t.val + (j 0).val := by
    show win1_4.index t 0 * 5000 + 1 * (j 0).val = 5000 * t.val + (j 0).val
    rw [e8]; omega
  have hcol : ((((cfg1.win 4).blk t).view.emb j) 1).val = (j 1).val := by
    show win1_4.index t 1 * 128 + 1 * (j 1).val = (j 1).val
    rw [e9]; omega
  refine combine_congr (n := 5000) (n' := 100000) (iblk1 V c 0 t) (iblk1 V c 1 t) (iblk1 V c 2 t)
    (V c main_v41) (V c main_v29) (V c main_v28) (iblk1 V c 3 t) (V c main_v42) j (((cfg1.win 4).blk t).view.emb j) ?_ ?_ ?_ ?_
  · exact read_messages V c t j _ hrow hcol
  · exact read_features V c t j _ hrow hcol
  · exact read_column V c t _ _ hrow rfl
  · refine (congrFun (read_bias V c t) _).trans (congrArg (V c main_v42 : S1x128.Idx → EReal) ?_)
    funext a
    apply Fin.ext
    match a with
    | ⟨0, _⟩ => rfl
    | ⟨1, _⟩ => exact hcol.symm

/-- An index of the array is in point `t`'s output block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- THE ARRAY AFTER THE LAUNCH is `combine` of the full arrays: row `r` is covered by point `r / 5000`. -/
theorem final (c : Dev nD) : (dat1 V c).arrAt 4 cfg1.N = combined V c :=
  (dat1 V c).arrAt_eq_of_cover 4 (combined V c) (fun t _ => flushed_eq V c t) fun i => by
    have hi0 : (i 0).val < 100000 := (i 0).isLt
    have hi1 : (i 1).val < 128 := (i 1).isLt
    obtain ⟨t, ht⟩ : ∃ t : Fin cfg1.N, t.val = (i 0).val / 5000 :=
      ⟨⟨(i 0).val / 5000, by rw [show cfg1.N = 20 from N_1]; omega⟩, rfl⟩
    obtain ⟨-, -, -, -, -, -, -, -, e8, e9⟩ := idx_facts t
    refine ⟨t, flush1_4 t, ?_⟩
    rw [mem_blk]
    intro a
    match a with
    | ⟨0, _⟩ => show win1_4.index t 0 * 5000 ≤ (i 0).val ∧ (i 0).val < win1_4.index t 0 * 5000 + 5000; rw [e8, ht]; omega
    | ⟨1, _⟩ => show win1_4.index t 1 * 128 ≤ (i 1).val ∧ (i 1).val < win1_4.index t 1 * 128 + 128; rw [e9]; omega

end Cert.KernelIdeal.Combine1

end
-- ==== Proof.Combine3.lean ====
/-
  Launch 3 (normalise, add the bias, rectify): the array it leaves is `combine` of the four arrays it reads.

  The grid has 20 points. At point `t` the body sees rows `5000·t … 5000·t + 4999` of the aggregated messages
  (`main_v56`), of the projected features (`main_v44`) and of the one-column self-normalisation (`main_v28`), and the
  whole one-row bias (`main_v57`); it stores `max (A + H·s + b) 0`, the column broadcast along the features and the row
  down the nodes, and the block is written back to the same rows of `main_v58`. An entry of `combine` depends only on
  the same entry of `A` and `H`, on `s` at its row and on `b` at its column, so each written block is the matching block
  of `combine` of the full arrays; the 20 row blocks tile the array. Stated for ANY contents `V` found at the launch.
-/
import proofs.«134860_j89627377533178_1_alg».proof.Proof.Gen.KernelIdeal.Frame
import proofs.«134860_j89627377533178_1_alg».proof.Proof.GcnLayer
import proofs.«134860_j89627377533178_1_alg».proof.Proof.BlockFacts
import Idealize.ShloMosaic.Lib.Pipeline.Value

set_option maxRecDepth 16384

noncomputable section

namespace Cert.KernelIdeal.Combine3

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open Cert.GcnLayer Cert.RowLayers

variable (V : (c : Dev nD) → (b : Ref sig .tc) → Buf (Elt Ideal) ((c : Thread nD τ).loc b))

/-- The body's stored value is `combine` of its four loaded blocks (the casts to the same shape are the identity). -/
theorem payload_eq (x0 x1 : Vec Ideal S5000x128 .f32) (x2 : Vec Ideal S5000x1 .f32) (x3 : Vec Ideal S1x128 .f32) :
    (k3_pay1 x0 x1 x2 x3 : S5000x128.Idx → EReal) = combine x0 x1 x2 x3 := by
  unfold k3_pay1
  dsimp only
  simp only [shapeCast_self]
  exact device_combine _ _ _ _ _ _

/-- The printed index maps over the grid: the row-block windows (messages, features, the column, the output) sit at
    block row `t`, block column 0; the bias window always at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The messages window's block at point `t` is rows `5000·t …` of the array. -/
theorem read_messages (c : Dev nD) (t : Fin cfg3.N) (y : S5000x128.Idx) (i : S100000x128.Idx)
    (h0 : (i 0).val = 5000 * t.val + (y 0).val) (h1 : (i 1).val = (y 1).val) :
    (iblk3 V c 0 t : S5000x128.Idx → EReal) y = (V c main_v56 : S100000x128.Idx → EReal) i := by
  obtain ⟨e0, e1, -⟩ := idx_facts t
  unfold iblk3
  rw [View.read_apply]
  show V c main_v56 _ = V c main_v56 _
  congr 1
  funext a
  apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- The features window's block at point `t` is rows `5000·t …` of the array. -/
theorem read_features (c : Dev nD) (t : Fin cfg3.N) (y : S5000x128.Idx) (i : S100000x128.Idx)
    (h0 : (i 0).val = 5000 * t.val + (y 0).val) (h1 : (i 1).val = (y 1).val) :
    (iblk3 V c 1 t : S5000x128.Idx → EReal) y = (V c main_v44 : S100000x128.Idx → EReal) i := by
  obtain ⟨-, -, e0, e1, -⟩ := idx_facts t
  unfold iblk3
  rw [View.read_apply]
  show V c main_v44 _ = V c main_v44 _
  congr 1
  funext a
  apply Fin.ext
  match a with
  | ⟨0, _⟩ => show win3_1.index t 0 * 5000 + 1 * (y 0).val = (i 0).val; rw [e0, h0]; omega
  | ⟨1, _⟩ => show win3_1.index t 1 * 128 + 1 * (y 1).val = (i 1).val; rw [e1, h1]; omega

/-- The column window's block at point `t` is rows `5000·t …` of the one-column array. -/
theorem read_column (c : Dev nD) (t : Fin cfg3.N) (y : S5000x1.Idx) (i : S100000x1.Idx)
    (h0 : (i 0).val = 5000 * t.val + (y 0).val) (h1 : (i 1).val = (y 1).val) :
    (iblk3 V c 2 t : S5000x1.Idx → EReal) y = (V c main_v28 : S100000x1.Idx → EReal) i := by
  obtain ⟨-, -, -, -, e0, e1, -⟩ := idx_facts t
  unfold iblk3
  rw [View.read_apply]
  show V c main_v28 _ = V c main_v28 _
  congr 1
  funext a
  apply Fin.ext
  match a with
  | ⟨0, _⟩ => show win3_2.index t 0 * 5000 + 1 * (y 0).val = (i 0).val; rw [e0, h0]; omega
  | ⟨1, _⟩ => show win3_2.index t 1 * 1 + 1 * (y 1).val = (i 1).val; rw [e1, h1]; omega

/-- The bias window's block is the whole row at every point. -/
theorem read_bias (c : Dev nD) (t : Fin cfg3.N) :
    (iblk3 V c 3 t : S1x128.Idx → EReal) = (V c main_v57 : S1x128.Idx → EReal) := by
  obtain ⟨-, -, -, -, -, -, e0, e1, -⟩ := idx_facts t
  funext y
  unfold iblk3
  rw [View.read_apply]
  show V c main_v57 _ = V c main_v57 _
  congr 1
  funext a
  apply Fin.ext
  match a with
  | ⟨0, _⟩ => show win3_3.index t 0 * 1 + 1 * (y 0).val = (y 0).val; rw [e0]; omega
  | ⟨1, _⟩ => show win3_3.index t 1 * 128 + 1 * (y 1).val = (y 1).val; rw [e1]; omega

/-- `combine` of the full arrays, at the output array's buffer. -/
abbrev combined (c : Dev nD) : Buf (Elt Ideal) ((c : Thread nD τ).loc main_v58) :=
  combine (V c main_v56 : S100000x128.Idx → EReal) (V c main_v44 : S100000x128.Idx → EReal)
    (V c main_v28 : S100000x1.Idx → EReal) (V c main_v57 : S1x128.Idx → EReal)

/-- What point `t` writes back is block `t` of `combine` of the full arrays. -/
theorem flushed_eq (c : Dev nD) (t : Fin cfg3.N) :
    (dat3 V c).flushed 4 t = ((cfg3.win 4).blk t).view.read (Elt Ideal) (combined V c) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  obtain ⟨-, -, -, -, -, -, -, -, e8, e9⟩ := idx_facts t
  funext j
  show k3_pay1 (iblk3 V c 0 t) (iblk3 V c 1 t) (iblk3 V c 2 t) (iblk3 V c 3 t) j
    = combine (V c main_v56 : S100000x128.Idx → EReal) (V c main_v44 : S100000x128.Idx → EReal)
        (V c main_v28 : S100000x1.Idx → EReal) (V c main_v57 : S1x128.Idx → EReal) (((cfg3.win 4).blk t).view.emb j)
  refine (congrFun (payload_eq (iblk3 V c 0 t) (iblk3 V c 1 t) (iblk3 V c 2 t) (iblk3 V c 3 t)) j).trans ?_
  have hrow : ((((cfg3.win 4).blk t).view.emb j) 0).val = 5000 * t.val + (j 0).val := by
    show win3_4.index t 0 * 5000 + 1 * (j 0).val = 5000 * t.val + (j 0).val
    rw [e8]; omega
  have hcol : ((((cfg3.win 4).blk t).view.emb j) 1).val = (j 1).val := by
    show win3_4.index t 1 * 128 + 1 * (j 1).val = (j 1).val
    rw [e9]; omega
  refine combine_congr (n := 5000) (n' := 100000) (iblk3 V c 0 t) (iblk3 V c 1 t) (iblk3 V c 2 t)
    (V c main_v56) (V c main_v44) (V c main_v28) (iblk3 V c 3 t) (V c main_v57) j (((cfg3.win 4).blk t).view.emb j) ?_ ?_ ?_ ?_
  · exact read_messages V c t j _ hrow hcol
  · exact read_features V c t j _ hrow hcol
  · exact read_column V c t _ _ hrow rfl
  · refine (congrFun (read_bias V c t) _).trans (congrArg (V c main_v57 : S1x128.Idx → EReal) ?_)
    funext a
    apply Fin.ext
    match a with
    | ⟨0, _⟩ => rfl
    | ⟨1, _⟩ => exact hcol.symm

/-- An index of the array is in point `t`'s output block iff each coordinate is in the block's range on its axis. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v58).slice (win3_4.rect t)).set ↔ _
  rw [View.set_slice_whole, Rect.mem_set_unit]
  exact Iff.rfl

/-- THE ARRAY AFTER THE LAUNCH is `combine` of the full arrays: row `r` is covered by point `r / 5000`. -/
theorem final (c : Dev nD) : (dat3 V c).arrAt 4 cfg3.N = combined V c :=
  (dat3 V c).arrAt_eq_of_cover 4 (combined V c) (fun t _ => flushed_eq V c t) fun i => by
    have hi0 : (i 0).val < 100000 := (i 0).isLt
    have hi1 : (i 1).val < 128 := (i 1).isLt
    obtain ⟨t, ht⟩ : ∃ t : Fin cfg3.N, t.val = (i 0).val / 5000 :=
      ⟨⟨(i 0).val / 5000, by rw [show cfg3.N = 20 from N_3]; omega⟩, rfl⟩
    obtain ⟨-, -, -, -, -, -, -, -, e8, e9⟩ := idx_facts t
    refine ⟨t, flush3_4 t, ?_⟩
    rw [mem_blk]
    intro a
    match a with
    | ⟨0, _⟩ => show win3_4.index t 0 * 5000 ≤ (i 0).val ∧ (i 0).val < win3_4.index t 0 * 5000 + 5000; rw [e8, ht]; omega
    | ⟨1, _⟩ => show win3_4.index t 1 * 128 ≤ (i 1).val ∧ (i 1).val < win3_4.index t 1 * 128 + 128; rw [e9]; omega

end Cert.KernelIdeal.Combine3

end
-- ==== Proof.Combine5.lean ====
/-
  Launch 5 (normalise, add the bias, rectify): the array it leaves is `combine` of the four arrays it reads.

  The grid has 20 points. At point `t` the body sees rows `5000·t … 5000·t + 4999` of the aggregated messages
  (`main_v71`), of the projected features (`main_v59`) and of the one-column self-normalisation (`main_v28`), and the
  whole one-row bias (`main_v72`); it stores `max (A + H·s + b) 0`, the column broadcast along the features and the row
  down the nodes, and the block is written back to the same rows of `main_v73`. An entry of `combine` depends only on
  the same entry of `A` and `H`, on `s` at its row and on `b` at its column, so each written block is the matching block
  of `combine` of the full arrays; the 20 row blocks tile the array. Stated for ANY contents `V` found at the launch.
-/
import proofs.«134860_j89627377533178_1_alg».proof.Proof.Gen.KernelIdeal.Frame
import proofs.«134860_j89627377533178_1_alg».proof.Proof.GcnLayer
import proofs.«134860_j89627377533178_1_alg».proof.Proof.BlockFacts
import Idealize.ShloMosaic.Lib.Pipeline.Value

set_option maxRecDepth 16384

noncomputable section

namespace Cert.KernelIdeal.Combine5

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open Cert.GcnLayer Cert.RowLayers

variable (V : (c : Dev nD) → (b : Ref sig .tc) → Buf (Elt Ideal) ((c : Thread nD τ).loc b))

/-- The body's stored value is `combine` of its four loaded blocks (the casts to the same shape are the identity). -/
theorem payload_eq (x0 x1 : Vec Ideal S5000x128 .f32) (x2 : Vec Ideal S5000x1 .f32) (x3 : Vec Ideal S1x128 .f32) :
    (k5_pay1 x0 x1 x2 x3 : S5000x128.Idx → EReal) = combine x0 x1 x2 x3 := by
  unfold k5_pay1
  dsimp only
  simp only [shapeCast_self]
  exact device_combine _ _ _ _ _ _

/-- The printed index maps over the grid: the row-block windows (messages, features, the column, the output) sit at
    block row `t`, block column 0; the bias window always at block (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The messages window's block at point `t` is rows `5000·t …` of the array. -/
theorem read_messages (c : Dev nD) (t : Fin cfg5.N) (y : S5000x128.Idx) (i : S100000x128.Idx)
    (h0 : (i 0).val = 5000 * t.val + (y 0).val) (h1 : (i 1).val = (y 1).val) :
    (iblk5 V c 0 t : S5000x128.Idx → EReal) y = (V c main_v71 : S100000x128.Idx → EReal) i := by
  obtain ⟨e0, e1, -⟩ := idx_facts t
  unfold iblk5
  rw [View.read_apply]
  show V c main_v71 _ = V c main_v71 _
  congr 1
  funext a
  apply Fin.ext
  match a with
  | ⟨0, _⟩ => show win5_0.index t 0 * 5000 + 1 * (y 0).val = (i 0).val; rw [e0, h0]; omega
  | ⟨1, _⟩ => show win5_0.index t 1 * 128 + 1 * (y 1).val = (i 1).val; rw [e1, h1]; omega

/-- The features window's block at point `t` is rows `5000·t …` of the array. -/
theorem read_features (c : Dev nD) (t : Fin cfg5.N) (y : S5000x128.Idx) (i : S100000x128.Idx)
    (h0 : (i 0).val = 5000 * t.val + (y 0).val) (h1 : (i 1).val = (y 1).val) :
    (iblk5 V c 1 t : S5000x128.Idx → EReal) y = (V c main_v59 : S100000x128.Idx → EReal) i := by
  obtain ⟨-, -, e0, e1, -⟩ := idx_facts t
  unfold iblk5
  rw [View.read_apply]
  show V c main_v59 _ = V c main_v59 _
  congr 1
  funext a
  apply Fin.ext
  match a with
  | ⟨0, _⟩ => show win5_1.index t 0 * 5000 + 1 * (y 0).val = (i 0).val; rw [e0, h0]; omega
  | ⟨1, _⟩ => show win5_1.index t 1 * 128 + 1 * (y 1).val = (i 1).val; rw [e1, h1]; omega

/-- The column window's block at point `t` is rows `5000·t …` of the one-column array. -/
theorem read_column (c : Dev nD) (t : Fin cfg5.N) (y : S5000x1.Idx) (i : S100000x1.Idx)
    (h0 : (i 0).val = 5000 * t.val + (y 0).val) (h1 : (i 1).val = (y 1).val) :
    (iblk5 V c 2 t : S5000x1.Idx → EReal) y = (V c main_v28 : S100000x1.Idx → EReal) i := by
  obtain ⟨-, -, -, -, e0, e1, -⟩ := idx_facts t
  unfold iblk5
  rw [View.read_apply]
  show V c main_v28 _ = V c main_v28 _
  congr 1
  funext a
  apply Fin.ext
  match a with
  | ⟨0, _⟩ => show win5_2.index t 0 * 5000 + 1 * (y 0).val = (i 0).val; rw [e0, h0]; omega
  | ⟨1, _⟩ => show win5_2.index t 1 * 1 + 1 * (y 1).val = (i 1).val; rw [e1, h1]; omega

/-- The bias window's block is the whole row at every point. -/
theorem read_bias (c : Dev nD) (t : Fin cfg5.N) :
    (iblk5 V c 3 t : S1x128.Idx → EReal) = (V c main_v72 : S1x128.Idx → EReal) := by
  obtain ⟨-, -, -, -, -, -, e0, e1, -⟩ := idx_facts t
  funext y
  unfold iblk5
  rw [View.read_apply]
  show V c main_v72 _ = V c main_v72 _
  congr 1
  funext a
  apply Fin.ext
  match a with
  | ⟨0, _⟩ => show win5_3.index t 0 * 1 + 1 * (y 0).val = (y 0).val; rw [e0]; omega
  | ⟨1, _⟩ => show win5_3.index t 1 * 128 + 1 * (y 1).val = (y 1).val; rw [e1]; omega

/-- `combine` of the full arrays, at the output array's buffer. -/
abbrev combined (c : Dev nD) : Buf (Elt Ideal) ((c : Thread nD τ).loc main_v73) :=
  combine (V c main_v71 : S100000x128.Idx → EReal) (V c main_v59 : S100000x128.Idx → EReal)
    (V c main_v28 : S100000x1.Idx → EReal) (V c main_v72 : S1x128.Idx → EReal)

/-- What point `t` writes back is block `t` of `combine` of the full arrays. -/
theorem flushed_eq (c : Dev nD) (t : Fin cfg5.N) :
    (dat5 V c).flushed 4 t = ((cfg5.win 4).blk t).view.read (Elt Ideal) (combined V c) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S1x128) hz]
  obtain ⟨-, -, -, -, -, -, -, -, e8, e9⟩ := idx_facts t
  funext j
  show k5_pay1 (iblk5 V c 0 t) (iblk5 V c 1 t) (iblk5 V c 2 t) (iblk5 V c 3 t) j
    = combine (V c main_v71 : S100000x128.Idx → EReal) (V c main_v59 : S100000x128.Idx → EReal)
        (V c main_v28 : S100000x1.Idx → EReal) (V c main_v72 : S1x128.Idx → EReal) (((cfg5.win 4).blk t).view.emb j)
  refine (congrFun (payload_eq (iblk5 V c 0 t) (iblk5 V c 1 t) (iblk5 V c 2 t) (iblk5 V c 3 t)) j).trans ?_
  have hrow : ((((cfg5.win 4).blk t).view.emb j) 0).val = 5000 * t.val + (j 0).val := by
    show win5_4.index t 0 * 5000 + 1 * (j 0).val = 5000 * t.val + (j 0).val
    rw [e8]; omega
  have hcol : ((((cfg5.win 4).blk t).view.emb j) 1).val = (j 1).val := by
    show win5_4.index t 1 * 128 + 1 * (j 1).val = (j 1).val
    rw [e9]; omega
  refine combine_congr (n := 5000) (n' := 100000) (iblk5 V c 0 t) (iblk5 V c 1 t) (iblk5 V c 2 t)
    (V c main_v71) (V c main_v59) (V c main_v28) (iblk5 V c 3 t) (V c main_v72) j (((cfg5.win 4).blk t).view.emb j) ?_ ?_ ?_ ?_
  · exact read_messages V c t j _ hrow hcol
  · exact read_features V c t j _ hrow hcol
  · exact read_column V c t _ _ hrow rfl
  · refine (congrFun (read_bias V c t) _).trans (congrArg (V c main_v72 : S1x128.Idx → EReal) ?_)
    funext a
    apply Fin.ext
    match a with
    | ⟨0, _⟩ => rfl
    | ⟨1, _⟩ => exact hcol.symm

/-- An index of the array is in point `t`'s output block iff each coordinate is in the block's range on its axis. -/
theorem mem_blk (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v73).slice (win5_4.rect t)).set ↔ _
  rw [View.set_slice_whole, Rect.mem_set_unit]
  exact Iff.rfl

/-- THE ARRAY AFTER THE LAUNCH is `combine` of the full arrays: row `r` is covered by point `r / 5000`. -/
theorem final (c : Dev nD) : (dat5 V c).arrAt 4 cfg5.N = combined V c :=
  (dat5 V c).arrAt_eq_of_cover 4 (combined V c) (fun t _ => flushed_eq V c t) fun i => by
    have hi0 : (i 0).val < 100000 := (i 0).isLt
    have hi1 : (i 1).val < 128 := (i 1).isLt
    obtain ⟨t, ht⟩ : ∃ t : Fin cfg5.N, t.val = (i 0).val / 5000 :=
      ⟨⟨(i 0).val / 5000, by rw [show cfg5.N = 20 from N_5]; omega⟩, rfl⟩
    obtain ⟨-, -, -, -, -, -, -, -, e8, e9⟩ := idx_facts t
    refine ⟨t, flush5_4 t, ?_⟩
    rw [mem_blk]
    intro a
    match a with
    | ⟨0, _⟩ => show win5_4.index t 0 * 5000 ≤ (i 0).val ∧ (i 0).val < win5_4.index t 0 * 5000 + 5000; rw [e8, ht]; omega
    | ⟨1, _⟩ => show win5_4.index t 1 * 128 ≤ (i 1).val ∧ (i 1).val < win5_4.index t 1 * 128 + 128; rw [e9]; omega

end Cert.KernelIdeal.Combine5

end
-- ==== Proof.Layers.lean ====
/-
  The idealized kernel's buffers, read layer by layer against the reference's stage functions.

  Each layer is a projection launch, a stretch of host operations (gather along the edges, scale by the per-edge
  normalisation, sum per destination node; the bias vector viewed as one row), and a combine launch. The projection
  launch leaves `project` of what it reads, which is the reference's matrix product; the host stretch applies to it the
  very operations the reference applies; the combine launch leaves `combine` of what it reads, which is the reference's
  "add the self term, add the bias, rectify". So after layer `n` the output buffer holds the reference's layer-`n` stage
  of the arguments, and after the last host stretch the two result buffers hold the reference's two results.
-/
import proofs.«134860_j89627377533178_1_alg».proof.Proof.Carried
import proofs.«134860_j89627377533178_1_alg».proof.Proof.RefLayers
import proofs.«134860_j89627377533178_1_alg».proof.Proof.Project0
import proofs.«134860_j89627377533178_1_alg».proof.Proof.Project2
import proofs.«134860_j89627377533178_1_alg».proof.Proof.Project4
import proofs.«134860_j89627377533178_1_alg».proof.Proof.Combine1
import proofs.«134860_j89627377533178_1_alg».proof.Proof.Combine3
import proofs.«134860_j89627377533178_1_alg».proof.Proof.Combine5

set_option maxRecDepth 16384
set_option maxHeartbeats 4000000

noncomputable section

namespace Cert.KernelIdeal.Layers

open Cert.KernelIdeal Cert.KernelIdeal.Gen Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Layer 1 -/

/-- The projection launch leaves the reference's projected features of layer 1. -/
theorem features1 (c : Dev nD) :
    W2 m ρ c (Proc.devRef .tc main_v29) = Cert.ReferenceIdeal.Read.val_main_v29 (F := Ideal) (m ((c : Thread nD τ).loc main_arg0)) (m ((c : Thread nD τ).loc main_arg3)) := by
  have h := carried1 m ρ c
  refine (W2_arr m ρ c 2).trans ((Project0.final (V1 m ρ) c).trans ?_)
  show Cert.GcnLayer.project (W1 m ρ c (Proc.devRef .tc main_arg0)) (W1 m ρ c (Proc.devRef .tc main_arg3)) = _
  rw [h.a0, h.a3]
  exact (Cert.ReferenceIdeal.Layers.features1 _ _).symm

/-- The host stretch gathers the features along the edges, scales them and sums them per destination node, exactly as
    the reference does: the aggregated messages of layer 1. -/
theorem messages1 (c : Dev nD) :
    W3 m ρ c (Proc.devRef .tc main_v41) = Cert.ReferenceIdeal.Read.val_main_v41 (F := Ideal) (m ((c : Thread nD τ).loc main_arg0)) (m ((c : Thread nD τ).loc main_arg1)) (m ((c : Thread nD τ).loc main_arg3)) := by
  have h := carried2 m ρ c
  show StableHlo.after hostOps1 (W2 m ρ c) (Proc.devRef .tc main_v41) = _
  dsimp only [hostOps1]
  after_results
  rw [features1 m ρ c, h.src, h.dst, h.enorm]
  rfl

/-- The same stretch leaves the projected features in place. -/
theorem features1_kept (c : Dev nD) :
    W3 m ρ c (Proc.devRef .tc main_v29) = Cert.ReferenceIdeal.Read.val_main_v29 (F := Ideal) (m ((c : Thread nD τ).loc main_arg0)) (m ((c : Thread nD τ).loc main_arg3)) := by
  show StableHlo.after hostOps1 (W2 m ρ c) (Proc.devRef .tc main_v29) = _
  dsimp only [hostOps1]
  after_results
  exact features1 m ρ c

/-- And it views the bias vector as one row. -/
theorem biasrow1 (c : Dev nD) :
    W3 m ρ c (Proc.devRef .tc main_v42) = shapeCast S1x128 (m ((c : Thread nD τ).loc main_arg4)) shapeCasts_S128_S1x128 := by
  have h := carried2 m ρ c
  show StableHlo.after hostOps1 (W2 m ρ c) (Proc.devRef .tc main_v42) = _
  dsimp only [hostOps1]
  after_results
  rw [h.a4]
  rfl

/-- The combine launch leaves the reference's output of layer 1. -/
theorem layer1 (c : Dev nD) :
    W4 m ρ c (Proc.devRef .tc main_v43) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := by
  have h := carried3 m ρ c
  refine (W4_arr m ρ c 4).trans ((Combine1.final (V3 m ρ) c).trans ?_)
  show Cert.GcnLayer.combine (W3 m ρ c (Proc.devRef .tc main_v41)) (W3 m ρ c (Proc.devRef .tc main_v29))
    (W3 m ρ c (Proc.devRef .tc main_v28)) (W3 m ρ c (Proc.devRef .tc main_v42)) = _
  rw [messages1 m ρ c, features1_kept m ρ c, h.snorm, biasrow1 m ρ c]
  unfold selfNormOf
  exact (Cert.ReferenceIdeal.Layers.layer1 shapeCasts_S128_S1x128 _ _ _ _).symm

/-! ## Layer 2 -/

/-- The projection launch leaves the reference's projected features of layer 2. -/
theorem features2 (c : Dev nD) :
    W5 m ρ c (Proc.devRef .tc main_v44) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have h := carried4 m ρ c
  refine (W5_arr m ρ c 2).trans ((Project2.final (V4 m ρ) c).trans ?_)
  show Cert.GcnLayer.project (W4 m ρ c (Proc.devRef .tc main_v43)) (W4 m ρ c (Proc.devRef .tc main_arg5)) = _
  rw [layer1 m ρ c, h.a5]
  exact (Cert.ReferenceIdeal.Layers.features2 _ _ _ _ _).symm

/-- The host stretch gathers the features along the edges, scales them and sums them per destination node, exactly as
    the reference does: the aggregated messages of layer 2. -/
theorem messages2 (c : Dev nD) :
    W6 m ρ c (Proc.devRef .tc main_v56) = Cert.ReferenceIdeal.Read.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have h := carried5 m ρ c
  show StableHlo.after hostOps3 (W5 m ρ c) (Proc.devRef .tc main_v56) = _
  dsimp only [hostOps3]
  after_results
  rw [features2 m ρ c, h.src, h.dst, h.enorm]
  rfl

/-- The same stretch leaves the projected features in place. -/
theorem features2_kept (c : Dev nD) :
    W6 m ρ c (Proc.devRef .tc main_v44) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v44) = _
  dsimp only [hostOps3]
  after_results
  exact features2 m ρ c

/-- And it views the bias vector as one row. -/
theorem biasrow2 (c : Dev nD) :
    W6 m ρ c (Proc.devRef .tc main_v57) = shapeCast S1x128 (m ((c : Thread nD τ).loc main_arg6)) shapeCasts_S128_S1x128 := by
  have h := carried5 m ρ c
  show StableHlo.after hostOps3 (W5 m ρ c) (Proc.devRef .tc main_v57) = _
  dsimp only [hostOps3]
  after_results
  rw [h.a6]
  rfl

/-- The combine launch leaves the reference's output of layer 2. -/
theorem layer2 (c : Dev nD) :
    W7 m ρ c (Proc.devRef .tc main_v58) = Cert.ReferenceIdeal.Read.val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h := carried6 m ρ c
  refine (W7_arr m ρ c 4).trans ((Combine3.final (V6 m ρ) c).trans ?_)
  show Cert.GcnLayer.combine (W6 m ρ c (Proc.devRef .tc main_v56)) (W6 m ρ c (Proc.devRef .tc main_v44))
    (W6 m ρ c (Proc.devRef .tc main_v28)) (W6 m ρ c (Proc.devRef .tc main_v57)) = _
  rw [messages2 m ρ c, features2_kept m ρ c, h.snorm, biasrow2 m ρ c]
  unfold selfNormOf
  exact (Cert.ReferenceIdeal.Layers.layer2 shapeCasts_S128_S1x128 _ _ _ _ _ _).symm

/-! ## Layer 3 -/

/-- The projection launch leaves the reference's projected features of layer 3. -/
theorem features3 (c : Dev nD) :
    W8 m ρ c (Proc.devRef .tc main_v59) = Cert.ReferenceIdeal.Read.val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  have h := carried7 m ρ c
  refine (W8_arr m ρ c 2).trans ((Project4.final (V7 m ρ) c).trans ?_)
  show Cert.GcnLayer.project (W7 m ρ c (Proc.devRef .tc main_v58)) (W7 m ρ c (Proc.devRef .tc main_arg7)) = _
  rw [layer2 m ρ c, h.a7]
  exact (Cert.ReferenceIdeal.Layers.features3 _ _ _ _ _ _ _).symm

/-- The host stretch gathers the features along the edges, scales them and sums them per destination node, exactly as
    the reference does: the aggregated messages of layer 3. -/
theorem messages3 (c : Dev nD) :
    W9 m ρ c (Proc.devRef .tc main_v71) = Cert.ReferenceIdeal.Read.val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  have h := carried8 m ρ c
  show StableHlo.after hostOps5 (W8 m ρ c) (Proc.devRef .tc main_v71) = _
  dsimp only [hostOps5]
  after_results
  rw [features3 m ρ c, h.src, h.dst, h.enorm]
  rfl

/-- The same stretch leaves the projected features in place. -/
theorem features3_kept (c : Dev nD) :
    W9 m ρ c (Proc.devRef .tc main_v59) = Cert.ReferenceIdeal.Read.val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W8 m ρ c) (Proc.devRef .tc main_v59) = _
  dsimp only [hostOps5]
  after_results
  exact features3 m ρ c

/-- And it views the bias vector as one row. -/
theorem biasrow3 (c : Dev nD) :
    W9 m ρ c (Proc.devRef .tc main_v72) = shapeCast S1x128 (m ((c : Thread nD τ).loc main_arg8)) shapeCasts_S128_S1x128 := by
  have h := carried8 m ρ c
  show StableHlo.after hostOps5 (W8 m ρ c) (Proc.devRef .tc main_v72) = _
  dsimp only [hostOps5]
  after_results
  rw [h.a8]
  rfl

/-- The combine launch leaves the reference's output of layer 3. -/
theorem layer3 (c : Dev nD) :
    W10 m ρ c (Proc.devRef .tc main_v73) = Cert.ReferenceIdeal.Read.val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := carried9 m ρ c
  refine (W10_arr m ρ c 4).trans ((Combine5.final (V9 m ρ) c).trans ?_)
  show Cert.GcnLayer.combine (W9 m ρ c (Proc.devRef .tc main_v71)) (W9 m ρ c (Proc.devRef .tc main_v59))
    (W9 m ρ c (Proc.devRef .tc main_v28)) (W9 m ρ c (Proc.devRef .tc main_v72)) = _
  rw [messages3 m ρ c, features3_kept m ρ c, h.snorm, biasrow3 m ρ c]
  unfold selfNormOf
  exact (Cert.ReferenceIdeal.Layers.layer3 shapeCasts_S128_S1x128 _ _ _ _ _ _ _ _).symm

/-! ## The results -/

/-- The last host stretch leaves the node embeddings in place: the reference's first result. -/
theorem node_embeddings (c : Dev nD) :
    W11 m ρ c (Proc.devRef .tc main_v73) = Cert.ReferenceIdeal.Read.val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W10 m ρ c) (Proc.devRef .tc main_v73) = _
  dsimp only [hostOps6]
  after_results
  exact layer3 m ρ c

/-- And it pools them per graph — sums per graph id, divided by the clamped counts — exactly as the reference does:
    the reference's second result. -/
theorem graph_embeddings (c : Dev nD) :
    W11 m ρ c (Proc.devRef .tc main_v85) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := carried10 m ρ c
  show StableHlo.after hostOps6 (W10 m ρ c) (Proc.devRef .tc main_v85) = _
  dsimp only [hostOps6]
  after_results
  rw [layer3 m ρ c, h.a2]
  rfl

end Cert.KernelIdeal.Layers

end
-- ==== Proof.lean ====
/-
  A three-layer graph convolution with mean pooling: the tiled device program against the plain host program.

  Both programs compute, from the edge list, the degree of every node (one self-loop added), its inverse square root,
  a normalisation per edge and one per node; then three times `X ↦ max (A + (X·W)·s + b) 0`, where `A` sums over the
  edges into a node the rows of `X·W` at the edges' sources, each scaled by the edge's normalisation; and finally the
  mean of the node rows per graph (sums per graph id divided by the counts clamped below by one). The device program
  does each product `X·W` and each `max (A + H·s + b) 0` as a launch over 20 blocks of 5000 node rows — the product
  through two changes of float format, which are the identity on extended reals, into a zero accumulator — and
  everything indexed by edges or graph ids as the same host operations the reference uses.

  Over the extended reals the two agree entry by entry, with no condition on the inputs beyond those stated: a product
  into a zero accumulator and a general product are the same sum over the 128 features (`project`); the device's
  broadcast column and row and the host's full-size broadcasts read the same entries, so both "combine" steps are
  `max ((A + H·s) + b) 0` with the same grouping and the same zero word (`combine`); both are row-wise, so the 20 row
  blocks tile the full result; and every other operation is shared verbatim. No law that could fail at an infinity
  (distributivity, cancellation) is used.

  The frames of the two printed device programs are the generated ones; the reference's frame is its generated run
  with the results dropped; the idealization rewrote nothing, so `preserves` is trivial.
-/
import proofs.«134860_j89627377533178_1_alg».proof.Defs
import proofs.«134860_j89627377533178_1_alg».proof.Proof.Gen.Kernel
import proofs.«134860_j89627377533178_1_alg».proof.Proof.Gen.Kernel.Skeleton
import proofs.«134860_j89627377533178_1_alg».proof.Proof.Gen.Kernel.Launch
import proofs.«134860_j89627377533178_1_alg».proof.Proof.Gen.Kernel.Points
import proofs.«134860_j89627377533178_1_alg».proof.Proof.Gen.Kernel.Frame
import proofs.«134860_j89627377533178_1_alg».proof.Proof.Gen.KernelIdeal
import proofs.«134860_j89627377533178_1_alg».proof.Proof.Gen.KernelIdeal.Skeleton
import proofs.«134860_j89627377533178_1_alg».proof.Proof.Gen.KernelIdeal.Launch
import proofs.«134860_j89627377533178_1_alg».proof.Proof.Gen.KernelIdeal.Points
import proofs.«134860_j89627377533178_1_alg».proof.Proof.Gen.KernelIdeal.Frame
import proofs.«134860_j89627377533178_1_alg».proof.Proof.Gen.ReferenceIdeal
import proofs.«134860_j89627377533178_1_alg».proof.Proof.Gen.Pre_finite_inputs
import proofs.«134860_j89627377533178_1_alg».proof.Proof.Gen.ReferenceIdeal.Run
import proofs.«134860_j89627377533178_1_alg».proof.Proof.Gen.ReferenceIdeal.Read
import proofs.«134860_j89627377533178_1_alg».proof.Proof.KernelRun
import proofs.«134860_j89627377533178_1_alg».proof.Proof.Layers
import Idealize.ShloMosaic.Adequacy
import Idealize.ShloMosaic.Init

set_option maxHeartbeats 4000000

noncomputable section

namespace Cert.Proof

open Idealize.ShloMosaic Idealize.ShloMosaic.TcCoe Idealize.SL.Sem

/-- The printed device program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the nine arguments both programs end with the node embeddings and the graph embeddings
    at the reference's stage functions of those arguments. -/
theorem algebraic : Cert.algebraic_KernelIdeal_ReferenceIdeal := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Results.run_results (F := Ideal) m ρ)
    obtain ⟨h0, h1, hargs⟩ := h c
    exact ⟨h0.trans (Cert.KernelIdeal.Layers.node_embeddings m ρ c), h1.trans (Cert.KernelIdeal.Layers.graph_embeddings m ρ c), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8⟩ := hagree c
    refine ⟨h0.trans ?_, h1.trans ?_, hargs⟩
    · rw [Cert.ReferenceIdeal.Read.val_main_v88_eq, e0, e1, e3, e4, e5, e6, e7, e8]
    · rw [Cert.ReferenceIdeal.Read.val_main_v100_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
